-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024 : Shape := ⟨1, ![1024]⟩
abbrev S1024x2048 : Shape := ⟨2, ![1024, 2048]⟩
abbrev S2048 : Shape := ⟨1, ![2048]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S2048 .f32) (main_arg5 : FVec F S1024x1024 .f32) (main_arg6 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024 .f32) (main_arg2 : FVec F S1024 .f32) (main_arg3 : FVec F S1024x2048 .f32) (main_arg4 : FVec F S2048 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_v13 main_v16
-- ==== Kernel.lean ====
abbrev S8x2048x1024 : Shape := ⟨3, ![8, 2048, 1024]⟩
abbrev S1024 : Shape := ⟨1, ![1024]⟩
abbrev S1024x2048 : Shape := ⟨2, ![1024, 2048]⟩
abbrev S2048 : Shape := ⟨1, ![2048]⟩
abbrev S1024x1024 : Shape := ⟨2, ![1024, 1024]⟩
abbrev S1024x1024x2 : Shape := ⟨3, ![1024, 1024, 2]⟩
abbrev S1024x1024x1 : Shape := ⟨3, ![1024, 1024, 1]⟩
abbrev S1024x2 : Shape := ⟨2, ![1024, 2]⟩
abbrev S1024x1 : Shape := ⟨2, ![1024, 1]⟩
abbrev S8x16x2048x64 : Shape := ⟨4, ![8, 16, 2048, 64]⟩
abbrev S8x16x64x2048 : Shape := ⟨4, ![8, 16, 64, 2048]⟩
abbrev S1x512x1024 : Shape := ⟨3, ![1, 512, 1024]⟩
abbrev S1x16x512x64 : Shape := ⟨4, ![1, 16, 512, 64]⟩
abbrev S1x16x64x512 : Shape := ⟨4, ![1, 16, 64, 512]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S512x2048 : Shape := ⟨2, ![512, 2048]⟩
abbrev S1x2048 : Shape := ⟨2, ![1, 2048]⟩
abbrev S512x16x64 : Shape := ⟨3, ![512, 16, 64]⟩
abbrev S16x512x64 : Shape := ⟨3, ![16, 512, 64]⟩
abbrev S16x64x512 : Shape := ⟨3, ![16, 64, 512]⟩

abbrev nBuf : Space → Nat
  | .hbm => 24
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S1024x1024, .f32⟩
  | .hbm, ⟨6, _⟩ => ⟨S1024, .f32⟩
  | .hbm, ⟨7, _⟩ => ⟨S1024x1024x2, .f32⟩
  | .hbm, ⟨8, _⟩ => ⟨S1024x1024x1, .f32⟩
  | .hbm, ⟨9, _⟩ => ⟨S1024x1024, .f32⟩
  | .hbm, ⟨10, _⟩ => ⟨S1024x1024x1, .f32⟩
  | .hbm, ⟨11, _⟩ => ⟨S1024x1024, .f32⟩
  | .hbm, ⟨12, _⟩ => ⟨S1024x2048, .f32⟩
  | .hbm, ⟨13, _⟩ => ⟨S1024x2, .f32⟩
  | .hbm, ⟨14, _⟩ => ⟨S1024x1, .f32⟩
  | .hbm, ⟨15, _⟩ => ⟨S1024, .f32⟩
  | .hbm, ⟨16, _⟩ => ⟨S1024x1, .f32⟩
  | .hbm, ⟨17, _⟩ => ⟨S1024, .f32⟩
  | .hbm, ⟨18, _⟩ => ⟨S2048, .f32⟩
  | .hbm, ⟨19, _⟩ => ⟨S1024x2048, .bf16⟩
  | .hbm, ⟨20, _⟩ => ⟨S1024x1024, .bf16⟩
  | .hbm, ⟨21, _⟩ => ⟨S8x16x2048x64, .f32⟩
  | .hbm, ⟨22, _⟩ => ⟨S8x16x64x2048, .f32⟩
  | .hbm, ⟨23, _⟩ => ⟨S8x16x2048x64, .f32⟩
  | .local _ .vmem, ⟨0, _⟩ => ⟨S1x512x1024, .f32⟩
  | .local _ .vmem, ⟨1, _⟩ => ⟨S1x512x1024, .f32⟩
  | .local _ .vmem, ⟨2, _⟩ => ⟨S1024, .f32⟩
  | .local _ .vmem, ⟨3, _⟩ => ⟨S1024, .f32⟩
  | .local _ .vmem, ⟨4, _⟩ => ⟨S1024x2048, .bf16⟩
  | .local _ .vmem, ⟨5, _⟩ => ⟨S2048, .f32⟩
  | .local _ .vmem, ⟨6, _⟩ => ⟨S1024x1024, .bf16⟩
  | .local _ .vmem, ⟨7, _⟩ => ⟨S1024, .f32⟩
  | .local _ .vmem, ⟨8, _⟩ => ⟨S1x16x512x64, .f32⟩
  | .local _ .vmem, ⟨9, _⟩ => ⟨S1x16x512x64, .f32⟩
  | .local _ .vmem, ⟨10, _⟩ => ⟨S1x16x64x512, .f32⟩
  | .local _ .vmem, ⟨11, _⟩ => ⟨S1x16x64x512, .f32⟩
  | .local _ .vmem, ⟨12, _⟩ => ⟨S1x16x512x64, .f32⟩
  | .local _ .vmem, ⟨13, _⟩ => ⟨S1x16x512x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S1024x2048_S1024x1024x2 : S1024x2048.ShapeCasts S1024x1024x2
  slices_S1024x1024x2_S1024x1024x1_0_0_0 : S1024x1024x2.Slices ![0, 0, 0] S1024x1024x1
  shapeCasts_S1024x1024x1_S1024x1024 : S1024x1024x1.ShapeCasts S1024x1024
  slices_S1024x1024x2_S1024x1024x1_0_0_1 : S1024x1024x2.Slices ![0, 0, 1] S1024x1024x1
  concatenates_S1024x1024_S1024x1024_S1024x2048_d1 : Shape.Concatenates [S1024x1024, S1024x1024] S1024x2048 1
  shapeCasts_S2048_S1024x2 : S2048.ShapeCasts S1024x2
  slices_S1024x2_S1024x1_0_0 : S1024x2.Slices ![0, 0] S1024x1
  shapeCasts_S1024x1_S1024 : S1024x1.ShapeCasts S1024
  slices_S1024x2_S1024x1_0_1 : S1024x2.Slices ![0, 1] S1024x1
  concatenates_S1024_S1024_S2048_d0 : Shape.Concatenates [S1024, S1024] S2048 0
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S1x2048_S512x2048 : S1x2048.Broadcasts S512x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S512x2048_o0_0_S512x1024 : S512x2048.Slices ![0, 0] S512x1024
  slices_S512x2048_o0_1024_S512x1024 : S512x2048.Slices ![0, 1024] S512x1024
  shapeCasts_S512x1024_S512x16x64 : S512x1024.ShapeCasts S512x16x64
  transposes_S512x16x64_p1_0_2_S16x512x64 : S512x16x64.Transposes [1, 0, 2] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  transposes_S512x16x64_p1_2_0_S16x64x512 : S512x16x64.Transposes [1, 2, 0] S16x64x512
  inb_S1x16x64x512_S1x16x64x512_0_0_0_0 : ∀ a, (![0, 0, 0, 0] : Fin 4 → Nat) a + S1x16x64x512.size a ≤ S1x16x64x512.size a
  h_S1x16x64x512 : 0 < S1x16x64x512.numel
  shapeCasts_S1x16x64x512_S16x64x512 : S1x16x64x512.ShapeCasts S16x64x512
  shapeCasts_S16x64x512_S1x16x64x512 : S16x64x512.ShapeCasts S1x16x64x512
  dot_S512x1024_S1024x2048_S512x2048_1_0_0_1_n_n_wf : DotDims.WF S512x1024 S1024x2048 S512x2048 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x512x64.size a ≤ S8x16x2048x64.size a
  hwx0_7 : ∀ i : grid0.Coords, EltTy.bits .f32 = 32 ∨ (Rect.block (s := S8x16x2048x64) S1x16x512x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x64x512.size a ≤ S8x16x64x2048.size a
  hwx0_8 : ∀ i : grid0.Coords, EltTy.bits .f32 = 32 ∨ (Rect.block (s := S8x16x64x2048) S1x16x64x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x16x512x64.size a ≤ S8x16x2048x64.size a
  hwx0_9 : ∀ i : grid0.Coords, EltTy.bits .f32 = 32 ∨ (Rect.block (s := S8x16x2048x64) S1x16x512x64.size (cc0_transform_9 i) (hinb0_9 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_0) S1x16x512x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_1) S1x16x64x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_2) S1x16x512x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024 : Shape := ⟨1, ![1024]⟩
abbrev S1024x2048 : Shape := ⟨2, ![1024, 2048]⟩
abbrev S2048 : Shape := ⟨1, ![2048]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S1x1x2048 : Shape := ⟨3, ![1, 1, 2048]⟩
abbrev S8x2048x16x64x2 : Shape := ⟨5, ![8, 2048, 16, 64, 2]⟩
abbrev S8x2048x16x64x1 : Shape := ⟨5, ![8, 2048, 16, 64, 1]⟩
abbrev S8x2048x16x64 : Shape := ⟨4, ![8, 2048, 16, 64]⟩
abbrev S8x16x2048x64 : Shape := ⟨4, ![8, 16, 2048, 64]⟩
abbrev S8x16x64x2048 : Shape := ⟨4, ![8, 16, 64, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S1024x1024, .f32⟩
  | .hbm, ⟨6, _⟩ => ⟨S1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x1, .f32⟩
  | .hbm, ⟨28, _⟩ => ⟨S8x2048x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S8x2048x2048, .f32⟩
  | .hbm, ⟨37, _⟩ => ⟨S1x1x2048, .f32⟩
  | .hbm, ⟨38, _⟩ => ⟨S8x2048x2048, .f32⟩
  | .hbm, ⟨39, _⟩ => ⟨S8x2048x2048, .f32⟩
  | .hbm, ⟨40, _⟩ => ⟨S8x2048x16x64x2, .f32⟩
  | .hbm, ⟨41, _⟩ => ⟨S8x2048x16x64x1, .f32⟩
  | .hbm, ⟨42, _⟩ => ⟨S8x2048x16x64, .f32⟩
  | .hbm, ⟨43, _⟩ => ⟨S8x2048x16x64x1, .f32⟩
  | .hbm, ⟨44, _⟩ => ⟨S8x2048x16x64, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S8x2048x16x64, .f32⟩
  | .hbm, ⟨50, _⟩ => ⟨S8x16x2048x64, .f32⟩
  | .hbm, ⟨51, _⟩ => ⟨S8x16x64x2048, .f32⟩
  | .hbm, ⟨52, _⟩ => ⟨S8x16x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  shapeCasts_S8x2048x2048_S8x2048x16x64x2 : S8x2048x2048.ShapeCasts S8x2048x16x64x2
  slices_S8x2048x16x64x2_S8x2048x16x64x1_0_0_0_0_0 : S8x2048x16x64x2.Slices ![0, 0, 0, 0, 0] S8x2048x16x64x1
  shapeCasts_S8x2048x16x64x1_S8x2048x16x64 : S8x2048x16x64x1.ShapeCasts S8x2048x16x64
  slices_S8x2048x16x64x2_S8x2048x16x64x1_0_0_0_0_1 : S8x2048x16x64x2.Slices ![0, 0, 0, 0, 1] S8x2048x16x64x1
  shapeCasts_S8x2048x1024_S8x2048x16x64 : S8x2048x1024.ShapeCasts S8x2048x16x64
  transposes_S8x2048x16x64_S8x16x2048x64_0_2_1_3 : S8x2048x16x64.Transposes [0, 2, 1, 3] S8x16x2048x64
  transposes_S8x2048x16x64_S8x16x64x2048_0_2_3_1 : S8x2048x16x64.Transposes [0, 2, 3, 1] S8x16x64x2048
  dot_S8x2048x1024_S1024x2048_S8x2048x2048_2_0_01_1_n_n_wf : DotDims.WF S8x2048x1024 S1024x2048 S8x2048x2048 [2] [0] [0, 1] [1] [] []
  dot_S8x2048x1024_S1024x1024_S8x2048x1024_2_0_01_1_n_n_wf : DotDims.WF S8x2048x1024 S1024x1024 S8x2048x1024 [2] [0] [0, 1] [1] [] []

variable [Facts₀]

def dot_S8x2048x1024_S1024x2048_S8x2048x2048_2_0_01_1_n_n : DotDims S8x2048x1024 S1024x2048 S8x2048x2048 where
  lhsContracting := [2]
  rhsContracting := [0]
  lhsNonContracting := [0, 1]
  rhsNonContracting := [1]
  lhsBatch := []
  rhsBatch := []
  wf := dot_S8x2048x1024_S1024x2048_S8x2048x2048_2_0_01_1_n_n_wf
def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf

class Facts : Prop extends Facts₀ where

variable [Facts]
-- ==== Proof.HostPrep.lean ====
/-
  What the region finds in the three arrays the host prepares before it.

  The interleaved weight [1024, 2048] is viewed as [1024, 1024, 2]; its even members and its odd members are taken out and
  set side by side, so column e of the prepared weight is column 2 e of the interleaved one when e < 1024 and column
  2 (e - 1024) + 1 otherwise. The bias is rearranged the same way. The second weight is used as it is. (Each is then
  narrowed to another float format, which on the extended reals changes nothing.)
-/
import proofs.«143649_j44736379355236_2_alg».proof.Proof.Gen.KernelIdeal.Frame
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.HostPrep

open Cert.KernelIdeal Cert.KernelIdeal.Facts₀ Idealize.ShloMosaic Idealize.ShloMosaic.TcCoe Idealize.ShloMosaic.ValueIdx
  Idealize.SL.Sem Idealize.ShloMosaic.StableHlo

variable {α : Type}

/-! ## The layout steps, read at an index -/

/-- A [1024, 1024, 1] array seen as [1024, 1024]. -/
theorem dropLast3 (X : S1024x1024x1.Idx → α) (h : S1024x1024x1.ShapeCasts S1024x1024) (i j : Fin 1024) :
    shapeCast S1024x1024 X h (ix2 i j) = X (ix3 i j (0 : Fin 1)) :=
  shapeCast_apply X h _ _ (by
    rw [Shape.rowMajor_val_three, Shape.rowMajor_val_two]
    show (i.val * 1024 + j.val) * 1 + 0 = i.val * 1024 + j.val
    omega)

/-- Member o of every pair of a [1024, 1024, 2] array. -/
theorem member3 (o : Nat) (X : S1024x1024x2.Idx → α) (h : S1024x1024x2.Slices ![0, 0, o] S1024x1024x1) (i j : Fin 1024)
    (p : Fin 2) (hp : p.val = o) :
    extractStridedSlice S1024x1024x1 ![0, 0, o] X h (ix3 i j (0 : Fin 1)) = X (ix3 i j p) :=
  extractStridedSlice_apply _ X h _ _ (fun ax => by
    match ax with
    | ⟨0, _⟩ => exact (Nat.zero_add _).symm
    | ⟨1, _⟩ => exact (Nat.zero_add _).symm
    | ⟨2, _⟩ => show p.val = o + 0; omega)

/-- A [1024, 2048] array seen as [1024, 1024, 2]: member p of pair j of row i is entry 2 j + p of the row. -/
theorem pairs3 (X : S1024x2048.Idx → α) (h : S1024x2048.ShapeCasts S1024x1024x2) (i j : Fin 1024) (p : Fin 2) (e : Fin 2048)
    (he : e.val = 2 * j.val + p.val) : shapeCast S1024x1024x2 X h (ix3 i j p) = X (ix2 i e) :=
  shapeCast_apply X h _ _ (by
    rw [Shape.rowMajor_val_two, Shape.rowMajor_val_three]
    show i.val * 2048 + e.val = (i.val * 1024 + j.val) * 2 + p.val
    omega)

/-- A [1024, 1] array seen as [1024]. -/
theorem dropLast2 (X : S1024x1.Idx → α) (h : S1024x1.ShapeCasts S1024) (j : Fin 1024) :
    shapeCast S1024 X h (ix1 j) = X (ix2 j (0 : Fin 1)) :=
  shapeCast_apply X h _ _ (by
    rw [Shape.rowMajor_val_two, Shape.rowMajor_val_one]
    show j.val * 1 + 0 = j.val
    omega)

/-- A [2048] array seen as [1024, 2]: member p of pair j is entry 2 j + p. -/
theorem pairs2 (X : S2048.Idx → α) (h : S2048.ShapeCasts S1024x2) (j : Fin 1024) (p : Fin 2) (e : Fin 2048)
    (he : e.val = 2 * j.val + p.val) : shapeCast S1024x2 X h (ix2 j p) = X (ix1 e) :=
  shapeCast_apply X h _ _ (by
    rw [Shape.rowMajor_val_one, Shape.rowMajor_val_two]
    show e.val = j.val * 2 + p.val
    omega)

/-! ## The three prepared arrays -/

variable (m : (ℓ : Loc nD τ sig) → Buf (Elt Ideal) ℓ)

/-- The prepared weight as the host operations' term of the interleaved weight. -/
theorem weight_eq (c : Dev nD) : @Eq (S1024x2048.Idx → EReal) (Gen.V m c main_v12)
    (truncf (F := Ideal) .bf16 (concatenate S1024x2048 1
      [⟨S1024x1024, shapeCast S1024x1024 (extractStridedSlice S1024x1024x1 ![0, 0, 0]
          (shapeCast S1024x1024x2 (m ((c : Thread nD τ).loc main_arg3)) shapeCasts_S1024x2048_S1024x1024x2)
          slices_S1024x1024x2_S1024x1024x1_0_0_0) shapeCasts_S1024x1024x1_S1024x1024⟩,
       ⟨S1024x1024, shapeCast S1024x1024 (extractStridedSlice S1024x1024x1 ![0, 0, 1]
          (shapeCast S1024x1024x2 (m ((c : Thread nD τ).loc main_arg3)) shapeCasts_S1024x2048_S1024x1024x2)
          slices_S1024x1024x2_S1024x1024x1_0_0_1) shapeCasts_S1024x1024x1_S1024x1024⟩]
      concatenates_S1024x1024_S1024x1024_S1024x2048_d1) bitsLt_bf16_f32) := by
  dsimp only [Gen.V, Gen.hostOps0]
  after_results
  rfl

/-- The prepared bias as the host operations' term of the interleaved bias. -/
theorem bias_eq (c : Dev nD) : @Eq (S2048.Idx → EReal) (Gen.V m c main_v11)
    (concatenate S2048 0
      [⟨S1024, shapeCast S1024 (extractStridedSlice S1024x1 ![0, 0]
          (shapeCast S1024x2 (m ((c : Thread nD τ).loc main_arg4)) shapeCasts_S2048_S1024x2) slices_S1024x2_S1024x1_0_0)
          shapeCasts_S1024x1_S1024⟩,
       ⟨S1024, shapeCast S1024 (extractStridedSlice S1024x1 ![0, 1]
          (shapeCast S1024x2 (m ((c : Thread nD τ).loc main_arg4)) shapeCasts_S2048_S1024x2) slices_S1024x2_S1024x1_0_1)
          shapeCasts_S1024x1_S1024⟩]
      concatenates_S1024_S1024_S2048_d0) := by
  dsimp only [Gen.V, Gen.hostOps0]
  after_results
  rfl

/-- The second weight is used as it is. -/
theorem weight2_eq (c : Dev nD) : @Eq (S1024x1024.Idx → EReal) (Gen.V m c main_v13) (m ((c : Thread nD τ).loc main_arg5)) := by
  dsimp only [Gen.V, Gen.hostOps0]
  after_results
  rfl

/-- COLUMN e < 1024 OF THE PREPARED WEIGHT is column 2 e of the interleaved weight. -/
theorem weight_apply_left (c : Dev nD) (k : Fin 1024) (e e' : Fin 2048) (he : e.val < 1024) (he' : e'.val = 2 * e.val) :
    (Gen.V m c main_v12 : S1024x2048.Idx → EReal) (ix2 k e) = m ((c : Thread nD τ).loc main_arg3) (ix2 k e') := by
  rw [weight_eq, truncf_apply]
  refine (concatenate_pair_apply_left (t := S1024x2048) (s₁ := S1024x1024) (s₂ := S1024x1024) 1 _ _ _ (ix2 k e) rfl (ix2 k (⟨e.val, he⟩ : Fin 1024)) (fun b => by
    match b with
    | ⟨0, _⟩ => rfl
    | ⟨1, _⟩ => rfl)).trans ?_
  refine (dropLast3 _ _ k ⟨e.val, he⟩).trans ?_
  refine (member3 0 _ _ k ⟨e.val, he⟩ 0 rfl).trans ?_
  exact pairs3 _ _ k ⟨e.val, he⟩ 0 e' (by show e'.val = 2 * e.val + 0; omega)

/-- COLUMN e ≥ 1024 OF THE PREPARED WEIGHT is column 2 (e - 1024) + 1 of the interleaved weight. -/
theorem weight_apply_right (c : Dev nD) (k : Fin 1024) (e e' : Fin 2048) (he : 1024 ≤ e.val) (he' : e'.val = 2 * (e.val - 1024) + 1) :
    (Gen.V m c main_v12 : S1024x2048.Idx → EReal) (ix2 k e) = m ((c : Thread nD τ).loc main_arg3) (ix2 k e') := by
  have hlt : e.val - 1024 < 1024 := by have := e.isLt; omega
  rw [weight_eq, truncf_apply]
  refine (concatenate_pair_apply_right (t := S1024x2048) (s₁ := S1024x1024) (s₂ := S1024x1024) 1 _ _ _ (ix2 k e) rfl rfl (ix2 k (⟨e.val - 1024, hlt⟩ : Fin 1024)) (fun b hb => by
    match b with
    | ⟨0, _⟩ => rfl
    | ⟨1, _⟩ => exact absurd rfl hb) (by show (e.val - 1024) + 1024 = e.val; omega)).trans ?_
  refine (dropLast3 _ _ k ⟨e.val - 1024, hlt⟩).trans ?_
  refine (member3 1 _ _ k ⟨e.val - 1024, hlt⟩ 1 rfl).trans ?_
  exact pairs3 _ _ k ⟨e.val - 1024, hlt⟩ 1 e' (by show e'.val = 2 * (e.val - 1024) + 1; omega)

/-- ENTRY e < 1024 OF THE PREPARED BIAS is entry 2 e of the interleaved bias. -/
theorem bias_apply_left (c : Dev nD) (e e' : Fin 2048) (he : e.val < 1024) (he' : e'.val = 2 * e.val) :
    (Gen.V m c main_v11 : S2048.Idx → EReal) (ix1 e) = m ((c : Thread nD τ).loc main_arg4) (ix1 e') := by
  rw [bias_eq]
  refine (concatenate_pair_apply_left (t := S2048) (s₁ := S1024) (s₂ := S1024) 0 _ _ _ (ix1 e) rfl (ix1 (⟨e.val, he⟩ : Fin 1024)) (fun b => by
    match b with
    | ⟨0, _⟩ => rfl)).trans ?_
  refine (dropLast2 _ _ ⟨e.val, he⟩).trans ?_
  refine (slice2_axis1_apply 0 _ _ ⟨e.val, he⟩ (0 : Fin 1) (0 : Fin 2) rfl).trans ?_
  exact pairs2 _ _ ⟨e.val, he⟩ 0 e' (by show e'.val = 2 * e.val + 0; omega)

/-- ENTRY e ≥ 1024 OF THE PREPARED BIAS is entry 2 (e - 1024) + 1 of the interleaved bias. -/
theorem bias_apply_right (c : Dev nD) (e e' : Fin 2048) (he : 1024 ≤ e.val) (he' : e'.val = 2 * (e.val - 1024) + 1) :
    (Gen.V m c main_v11 : S2048.Idx → EReal) (ix1 e) = m ((c : Thread nD τ).loc main_arg4) (ix1 e') := by
  have hlt : e.val - 1024 < 1024 := by have := e.isLt; omega
  rw [bias_eq]
  refine (concatenate_pair_apply_right (t := S2048) (s₁ := S1024) (s₂ := S1024) 0 _ _ _ (ix1 e) rfl rfl (ix1 (⟨e.val - 1024, hlt⟩ : Fin 1024)) (fun b hb => by
    match b with
    | ⟨0, _⟩ => exact absurd rfl hb) (by show (e.val - 1024) + 1024 = e.val; omega)).trans ?_
  refine (dropLast2 _ _ ⟨e.val - 1024, hlt⟩).trans ?_
  refine (slice2_axis1_apply 1 _ _ ⟨e.val - 1024, hlt⟩ (0 : Fin 1) (1 : Fin 2) rfl).trans ?_
  exact pairs2 _ _ ⟨e.val - 1024, hlt⟩ 1 e' (by show e'.val = 2 * (e.val - 1024) + 1; omega)

end Cert.KernelIdeal.HostPrep

end
-- ==== Proof.BlockReads.lean ====
/-
  The grid, and what each input window's block holds at a point.

  The grid has 8 x 4 points (b, i). The input window's block at (b, i) is rows 512 i .. 512 i + 511 of batch b; the six
  other inputs are whole arrays, the same at every point. The query and value windows' block at (b, i) is rows
  512 i .. 512 i + 511 of every head of batch b, the key window's is columns 512 i .. 512 i + 511. The relations between
  the printed index maps are decided once over the 32 points.
-/
import proofs.«143649_j44736379355236_2_alg».proof.Proof.Gen.KernelIdeal.Frame
import proofs.«143649_j44736379355236_2_alg».proof.Proof.HostPrep
import Idealize.ShloMosaic.Lib.Pipeline.Value
import Idealize.ShloMosaic.Lib.ValueIdx

noncomputable section

namespace Cert.KernelIdeal.Reads

open Cert.KernelIdeal Cert.KernelIdeal.Gen Idealize.ShloMosaic Idealize.ShloMosaic.TcCoe Idealize.ShloMosaic.ValueIdx Idealize.SL.Sem
open Idealize.ShloMosaic.Pipeline (Dat)

/-- The printed index maps over the grid: the six whole-array inputs sit at block 0; the three outputs move with the
    input's batch and row-block coordinates, which stay in range. -/
theorem idx_facts : ∀ t : Fin cfg0.N,
    win0_0.index t (2 : Fin 3) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 4) = win0_0.index t (0 : Fin 3) ∧ win0_7.index t (1 : Fin 4) = 0
    ∧ win0_7.index t (2 : Fin 4) = win0_0.index t (1 : Fin 3) ∧ win0_7.index t (3 : Fin 4) = 0
    ∧ win0_8.index t (0 : Fin 4) = win0_0.index t (0 : Fin 3) ∧ win0_8.index t (1 : Fin 4) = 0
    ∧ win0_8.index t (2 : Fin 4) = 0 ∧ win0_8.index t (3 : Fin 4) = win0_0.index t (1 : Fin 3)
    ∧ win0_9.index t (0 : Fin 4) = win0_0.index t (0 : Fin 3) ∧ win0_9.index t (1 : Fin 4) = 0
    ∧ win0_9.index t (2 : Fin 4) = win0_0.index t (1 : Fin 3) ∧ win0_9.index t (3 : Fin 4) = 0
    ∧ win0_0.index t (0 : Fin 3) < 8 ∧ win0_0.index t (1 : Fin 3) < 4 :=
  (by decide +kernel : ∀ t : Fin grid0.N, _)

/-- Every (batch, row block) is some point's. -/
theorem idx_onto : ∀ (q0 : Fin 8) (q1 : Fin 4), ∃ t : Fin cfg0.N,
    win0_0.index t (0 : Fin 3) = q0.val ∧ win0_0.index t (1 : Fin 3) = q1.val :=
  (by decide +kernel : ∀ (q0 : Fin 8) (q1 : Fin 4), ∃ t : Fin grid0.N,
    win0_0.index t (0 : Fin 3) = q0.val ∧ win0_0.index t (1 : Fin 3) = q1.val)

variable (m : (ℓ : Loc nD τ sig) → Buf (Elt Ideal) ℓ)

/-- Row r of the input block at a point is row 512 i + r of batch b of the input. -/
theorem in0_apply (c : Dev nD) (t : Fin cfg0.N) (r : Fin 512) (k : Fin 1024) (b : Fin 8) (n : Fin 2048)
    (hb : b.val = win0_0.index t (0 : Fin 3)) (hn : n.val = win0_0.index t (1 : Fin 3) * 512 + r.val)
    (h2 : win0_0.index t (2 : Fin 3) = 0) :
    (iblk m c 0 t : Vec Ideal S1x512x1024 .f32) (ix3 (0 : Fin 1) r k)
      = (m ((c : Thread nD τ).loc main_arg0) : S8x2048x1024.Idx → EReal) (ix3 b n k) := by
  unfold iblk
  rw [View.read_apply]
  show V m c main_arg0 _ = _
  rw [V_main_arg0]
  congr 1
  funext a
  apply Fin.ext
  match a with
  | ⟨0, _⟩ => show win0_0.index t (0 : Fin 3) * 1 + 1 * 0 = b.val; omega
  | ⟨1, _⟩ => show win0_0.index t (1 : Fin 3) * 512 + 1 * r.val = n.val; omega
  | ⟨2, _⟩ => show win0_0.index t (2 : Fin 3) * 1024 + 1 * k.val = k.val; omega

/-- The gain block is the gain. -/
theorem in1_apply (c : Dev nD) (t : Fin cfg0.N) (k : Fin 1024) (h0 : win0_1.index t (0 : Fin 1) = 0) :
    (iblk m c 1 t : Vec Ideal S1024 .f32) (ix1 k) = (m ((c : Thread nD τ).loc main_arg1) : S1024.Idx → EReal) (ix1 k) := by
  unfold iblk
  rw [View.read_apply]
  show V m c main_arg1 _ = _
  rw [V_main_arg1]
  congr 1
  funext a
  apply Fin.ext
  match a with
  | ⟨0, _⟩ => show win0_1.index t (0 : Fin 1) * 1024 + 1 * k.val = k.val; omega

/-- The offset block is the offset. -/
theorem in2_apply (c : Dev nD) (t : Fin cfg0.N) (k : Fin 1024) (h0 : win0_2.index t (0 : Fin 1) = 0) :
    (iblk m c 2 t : Vec Ideal S1024 .f32) (ix1 k) = (m ((c : Thread nD τ).loc main_arg2) : S1024.Idx → EReal) (ix1 k) := by
  unfold iblk
  rw [View.read_apply]
  show V m c main_arg2 _ = _
  rw [V_main_arg2]
  congr 1
  funext a
  apply Fin.ext
  match a with
  | ⟨0, _⟩ => show win0_2.index t (0 : Fin 1) * 1024 + 1 * k.val = k.val; omega

/-- The weight block is the prepared weight. -/
theorem in3_apply (c : Dev nD) (t : Fin cfg0.N) (k : Fin 1024) (e : Fin 2048)
    (h0 : win0_3.index t (0 : Fin 2) = 0) (h1 : win0_3.index t (1 : Fin 2) = 0) :
    (iblk m c 3 t : FVec Ideal S1024x2048 .bf16) (ix2 k e) = (V m c main_v12 : S1024x2048.Idx → EReal) (ix2 k e) := by
  unfold iblk
  rw [View.read_apply]
  show V m c main_v12 _ = _
  congr 1
  funext a
  apply Fin.ext
  match a with
  | ⟨0, _⟩ => show win0_3.index t (0 : Fin 2) * 1024 + 1 * k.val = k.val; omega
  | ⟨1, _⟩ => show win0_3.index t (1 : Fin 2) * 2048 + 1 * e.val = e.val; omega

/-- The bias block is the prepared bias. -/
theorem in4_apply (c : Dev nD) (t : Fin cfg0.N) (e : Fin 2048) (h0 : win0_4.index t (0 : Fin 1) = 0) :
    (iblk m c 4 t : Vec Ideal S2048 .f32) (ix1 e) = (V m c main_v11 : S2048.Idx → EReal) (ix1 e) := by
  unfold iblk
  rw [View.read_apply]
  show V m c main_v11 _ = _
  congr 1
  funext a
  apply Fin.ext
  match a with
  | ⟨0, _⟩ => show win0_4.index t (0 : Fin 1) * 2048 + 1 * e.val = e.val; omega

/-- The second weight block is the second weight. -/
theorem in5_apply (c : Dev nD) (t : Fin cfg0.N) (k : Fin 1024) (e : Fin 1024)
    (h0 : win0_5.index t (0 : Fin 2) = 0) (h1 : win0_5.index t (1 : Fin 2) = 0) :
    (iblk m c 5 t : FVec Ideal S1024x1024 .bf16) (ix2 k e) = (m ((c : Thread nD τ).loc main_arg5) : S1024x1024.Idx → EReal) (ix2 k e) := by
  unfold iblk
  rw [View.read_apply]
  show V m c main_v13 _ = _
  rw [HostPrep.weight2_eq]
  congr 1
  funext a
  apply Fin.ext
  match a with
  | ⟨0, _⟩ => show win0_5.index t (0 : Fin 2) * 1024 + 1 * k.val = k.val; omega
  | ⟨1, _⟩ => show win0_5.index t (1 : Fin 2) * 1024 + 1 * e.val = e.val; omega

/-- The second bias block is the second bias. -/
theorem in6_apply (c : Dev nD) (t : Fin cfg0.N) (k : Fin 1024) (h0 : win0_6.index t (0 : Fin 1) = 0) :
    (iblk m c 6 t : Vec Ideal S1024 .f32) (ix1 k) = (m ((c : Thread nD τ).loc main_arg6) : S1024.Idx → EReal) (ix1 k) := by
  unfold iblk
  rw [View.read_apply]
  show V m c main_arg6 _ = _
  rw [V_main_arg6]
  congr 1
  funext a
  apply Fin.ext
  match a with
  | ⟨0, _⟩ => show win0_6.index t (0 : Fin 1) * 1024 + 1 * k.val = k.val; omega

end Cert.KernelIdeal.Reads

end
-- ==== Proof.Spec.lean ====
/-
  Layer normalisation of a row followed by an affine projection, on the extended reals.

  For a row x of 1024 entries: its mean is the row's sum divided by the float 1024.0, its variance the sum of the
  squared deviations from that mean divided by 1024.0, its scale the reciprocal square root of the variance plus the
  float nearest 1e-5; the normalised row is (x k - mean) * scale * g k + bt k for a gain row g and an offset row bt.
  A projection of a row y against a column w with a bias is the sum over k of y k * w k, plus the bias.
  Both programs compute exactly these, one row and one output column at a time; the constants are kept as the words
  both programs print, so neither is ever evaluated.
-/
import Idealize.ShloMosaic.PureOps.Ideal
import Idealize.ShloMosaic.Lib.ValueIdx

noncomputable section

open scoped BigOperators

namespace Cert.LnQkv

open Idealize.ShloMosaic Idealize.ShloMosaic.ValueIdx

/-- The float 1024.0, the divisor of both means. -/
abbrev nWord : EReal := Ideal.ofBits .f32 0x44800000#32
/-- The float nearest 1e-5, added to the variance. -/
abbrev epsWord : EReal := Ideal.ofBits .f32 0x3727C5AC#32

/-- The mean of a row. -/
def rowMean (x : Fin 1024 → EReal) : EReal := Ideal.div (∑ k : Fin 1024, x k) nWord

/-- The variance of a row about its mean. -/
def rowVar (x : Fin 1024 → EReal) : EReal :=
  Ideal.div (∑ k : Fin 1024, (x k - rowMean x) * (x k - rowMean x)) nWord

/-- The scale of a row: the reciprocal square root of its variance plus epsilon. -/
def rowScale (x : Fin 1024 → EReal) : EReal := Ideal.rsqrt (rowVar x + epsWord)

/-- The normalised row with gain g and offset bt. -/
def lnRow (x g bt : Fin 1024 → EReal) (k : Fin 1024) : EReal :=
  (x k - rowMean x) * rowScale x * g k + bt k

/-- A row against a column, without the bias. -/
def dotRow (y w : Fin 1024 → EReal) : EReal := ∑ k : Fin 1024, y k * w k

/-- A row against a column, plus a bias. -/
def proj (y w : Fin 1024 → EReal) (bias : EReal) : EReal := dotRow y w + bias

/-- Column 2 (64 h + d) of the interleaved weight: the query column of head h, lane d. -/
def colQ (h : Fin 16) (d : Fin 64) : Fin 2048 := ⟨2 * (64 * h.val + d.val), by have := h.isLt; have := d.isLt; omega⟩
/-- Column 2 (64 h + d) + 1 of the interleaved weight: the key column of head h, lane d. -/
def colK (h : Fin 16) (d : Fin 64) : Fin 2048 := ⟨2 * (64 * h.val + d.val) + 1, by have := h.isLt; have := d.isLt; omega⟩
/-- Column 64 h + d of the value weight. -/
def colV (h : Fin 16) (d : Fin 64) : Fin 1024 := ⟨64 * h.val + d.val, by have := h.isLt; have := d.isLt; omega⟩

/-! ## The three results as functions of the seven argument arrays -/

section
variable (x0 : (⟨3, ![8, 2048, 1024]⟩ : Shape).Idx → EReal) (x1 x2 : (⟨1, ![1024]⟩ : Shape).Idx → EReal)
  (x3 : (⟨2, ![1024, 2048]⟩ : Shape).Idx → EReal) (x4 : (⟨1, ![2048]⟩ : Shape).Idx → EReal)
  (x5 : (⟨2, ![1024, 1024]⟩ : Shape).Idx → EReal) (x6 : (⟨1, ![1024]⟩ : Shape).Idx → EReal)

/-- Row (b, n) of the input, normalised with the gain x1 and the offset x2. -/
def normRow (b : Fin 8) (n : Fin 2048) : Fin 1024 → EReal :=
  lnRow (fun k => x0 (ix3 b n k)) (fun k => x1 (ix1 k)) (fun k => x2 (ix1 k))

/-- The query at batch b, head h, position n, lane d. -/
def qAt (b : Fin 8) (h : Fin 16) (n : Fin 2048) (d : Fin 64) : EReal :=
  proj (normRow x0 x1 x2 b n) (fun k => x3 (ix2 k (colQ h d))) (x4 (ix1 (colQ h d)))
/-- The key at batch b, head h, lane d, position n. -/
def kAt (b : Fin 8) (h : Fin 16) (d : Fin 64) (n : Fin 2048) : EReal :=
  proj (normRow x0 x1 x2 b n) (fun k => x3 (ix2 k (colK h d))) (x4 (ix1 (colK h d)))
/-- The value at batch b, head h, position n, lane d. -/
def vAt (b : Fin 8) (h : Fin 16) (n : Fin 2048) (d : Fin 64) : EReal :=
  proj (normRow x0 x1 x2 b n) (fun k => x5 (ix2 k (colV h d))) (x6 (ix1 (colV h d)))

/-- The queries, [8, 16, 2048, 64]. -/
def Gq : (⟨4, ![8, 16, 2048, 64]⟩ : Shape).Idx → EReal := fun i => qAt x0 x1 x2 x3 x4 (i 0) (i 1) (i 2) (i 3)
/-- The keys, [8, 16, 64, 2048]. -/
def Gk : (⟨4, ![8, 16, 64, 2048]⟩ : Shape).Idx → EReal := fun i => kAt x0 x1 x2 x3 x4 (i 0) (i 1) (i 2) (i 3)
/-- The values, [8, 16, 2048, 64]. -/
def Gv : (⟨4, ![8, 16, 2048, 64]⟩ : Shape).Idx → EReal := fun i => vAt x0 x1 x2 x5 x6 (i 0) (i 1) (i 2) (i 3)

theorem Gq_apply (b : Fin 8) (h : Fin 16) (n : Fin 2048) (d : Fin 64) :
    Gq x0 x1 x2 x3 x4 (ix4 b h n d) = qAt x0 x1 x2 x3 x4 b h n d := rfl
theorem Gk_apply (b : Fin 8) (h : Fin 16) (d : Fin 64) (n : Fin 2048) :
    Gk x0 x1 x2 x3 x4 (ix4 b h d n) = kAt x0 x1 x2 x3 x4 b h d n := rfl
theorem Gv_apply (b : Fin 8) (h : Fin 16) (n : Fin 2048) (d : Fin 64) :
    Gv x0 x1 x2 x5 x6 (ix4 b h n d) = vAt x0 x1 x2 x5 x6 b h n d := rfl

end

end Cert.LnQkv

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«143649_j44736379355236_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.KernelRow.lean ====
/-
  The kernel body's arithmetic, one row and one column at a time, on the extended reals.

  The body works on a block of 512 rows of 1024 entries. Row r of the value it feeds both matrix products is the
  layer normalisation (Spec: lnRow) of row r of the block with the gain and offset vectors; entry (r, e) of the first
  product plus its bias row is that normalised row against column e of the block's weight, plus entry e of the bias; entry
  (r, e) of the second product is the normalised row against column e of the second weight.
  The row sums are lane sums kept as a column and repeated along each row; the products accumulate into zero.
-/
import proofs.«143649_j44736379355236_2_alg».proof.Proof.Gen.KernelIdeal.Skeleton
import proofs.«143649_j44736379355236_2_alg».proof.Proof.Spec
import proofs.«143649_j44736379355236_2_alg».proof.Proof.LibRowReduce
import proofs.«143649_j44736379355236_2_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Rows

open Cert.KernelIdeal Cert.KernelIdeal.Facts₀ Idealize.ShloMosaic Idealize.ShloMosaic.ValueIdx Cert.LnQkv

/-- Row r of a [1, 512, 1024] block. -/
abbrev blkRow (P0 : Vec Ideal S1x512x1024 .f32) (r : Fin 512) : Fin 1024 → EReal := fun k => P0 (ix3 (0 : Fin 1) r k)
/-- A vector of 1024 entries as a row. -/
abbrev vecRow (P : Vec Ideal S1024 .f32) : Fin 1024 → EReal := fun k => P (ix1 k)

/-! ## The normalisation, as the body spells it over a [512, 1024] array X -/

/-- The row sums kept as a column, over the float 1024.0. -/
def colMean (X : FVec Ideal S512x1024 .f32) : FVec Ideal S512x1 .f32 :=
  divf (shapeCast S512x1 (multiReduction .add [1] S512 X 0x00000000#32 reduces_S512x1024_S512 (.inl rfl) rfl) shapeCasts_S512_S512x1)
    (broadcast S512x1 (Scalar.ofBits .f32 0x44800000#32))

/-- X less its rows' means. -/
def centered (X : FVec Ideal S512x1024 .f32) : FVec Ideal S512x1024 .f32 :=
  subf X (broadcastTo S512x1024 (colMean X) broadcasts_S512x1_S512x1024)

/-- The rows' scales as a column. -/
def colScale (X : FVec Ideal S512x1024 .f32) : FVec Ideal S512x1 .f32 :=
  rsqrt (addf (colMean (mulf (centered X) (centered X))) (broadcast S512x1 (Scalar.ofBits .f32 0x3727C5AC#32)))

/-- The normalised array with gain P1 and offset P2. -/
def normed (X : FVec Ideal S512x1024 .f32) (P1 P2 : Vec Ideal S1024 .f32) : FVec Ideal S512x1024 .f32 :=
  addf (mulf (mulf (centered X) (broadcastTo S512x1024 (colScale X) broadcasts_S512x1_S512x1024))
      (broadcastTo S512x1024 (shapeCast S1x1024 P1 shapeCasts_S1024_S1x1024) broadcasts_S1x1024_S512x1024))
    (broadcastTo S512x1024 (shapeCast S1x1024 P2 shapeCasts_S1024_S1x1024) broadcasts_S1x1024_S512x1024)

/-- The body's normalised value is that of the block seen as [512, 1024] (the change of float format is the identity). -/
theorem pay4_eq (P0 : Vec Ideal S1x512x1024 .f32) (P1 P2 : Vec Ideal S1024 .f32) :
    Gen.k0_pay4 (F := Ideal) P0 P1 P2 = normed (shapeCast S512x1024 P0 shapeCasts_S1x512x1024_S512x1024) P1 P2 := rfl

theorem colMean_apply (X : FVec Ideal S512x1024 .f32) (r : Fin 512) (u : Fin 1) :
    colMean X (ix2 r u) = Ideal.div (∑ k : Fin 1024, X (ix2 r k)) nWord :=
  congrArg (Ideal.div · nWord)
    ((Cert.LibColumn.shapeCast_a_a1_apply _ shapeCasts_S512_S512x1 r u).trans
      (Cert.LibRowReduce.rowSum_apply X 0x00000000#32 reduces_S512x1024_S512 (.inl rfl) rfl r))

theorem centered_apply (X : FVec Ideal S512x1024 .f32) (r : Fin 512) (k : Fin 1024) :
    centered X (ix2 r k) = X (ix2 r k) - Ideal.div (∑ k' : Fin 1024, X (ix2 r k')) nWord :=
  congrArg (X (ix2 r k) - ·)
    ((Cert.LibColumn.broadcastTo_a1_ab_apply (colMean X) broadcasts_S512x1_S512x1024 r k).trans (colMean_apply X r 0))

theorem colScale_apply (X : FVec Ideal S512x1024 .f32) (r : Fin 512) (u : Fin 1) :
    colScale X (ix2 r u)
      = Ideal.rsqrt (Ideal.div (∑ k : Fin 1024, centered X (ix2 r k) * centered X (ix2 r k)) nWord + epsWord) :=
  congrArg (fun z => Ideal.rsqrt (z + epsWord)) (colMean_apply (mulf (centered X) (centered X)) r u)

/-- ROW r OF THE NORMALISED ARRAY is the layer normalisation of row r of X. -/
theorem normed_apply (X : FVec Ideal S512x1024 .f32) (P1 P2 : Vec Ideal S1024 .f32) (r : Fin 512) (k : Fin 1024) :
    normed X P1 P2 (ix2 r k) = lnRow (fun k' => X (ix2 r k')) (vecRow P1) (vecRow P2) k := by
  have hs : broadcastTo S512x1024 (colScale X) broadcasts_S512x1_S512x1024 (ix2 r k) = rowScale (fun k' => X (ix2 r k')) := by
    refine (Cert.LibColumn.broadcastTo_a1_ab_apply (colScale X) broadcasts_S512x1_S512x1024 r k).trans ?_
    refine (colScale_apply X r 0).trans ?_
    unfold rowScale rowVar rowMean
    simp only [centered_apply]
  have hg : ∀ P : Vec Ideal S1024 .f32,
      broadcastTo S512x1024 (shapeCast S1x1024 P shapeCasts_S1024_S1x1024) broadcasts_S1x1024_S512x1024 (ix2 r k) = P (ix1 k) :=
    fun P => (broadcastTo_1b_ab_apply _ broadcasts_S1x1024_S512x1024 r k).trans (shapeCast_a_1a_apply P shapeCasts_S1024_S1x1024 0 k)
  show centered X (ix2 r k) * broadcastTo S512x1024 (colScale X) broadcasts_S512x1_S512x1024 (ix2 r k)
      * broadcastTo S512x1024 (shapeCast S1x1024 P1 shapeCasts_S1024_S1x1024) broadcasts_S1x1024_S512x1024 (ix2 r k)
      + broadcastTo S512x1024 (shapeCast S1x1024 P2 shapeCasts_S1024_S1x1024) broadcasts_S1x1024_S512x1024 (ix2 r k) = _
  rw [hs, hg P1, hg P2, centered_apply]
  rfl

/-- ROW r OF THE VALUE FED TO THE PRODUCTS: the layer normalisation of row r of the block. -/
theorem pay4_apply (P0 : Vec Ideal S1x512x1024 .f32) (P1 P2 : Vec Ideal S1024 .f32) (r : Fin 512) (k : Fin 1024) :
    Gen.k0_pay4 (F := Ideal) P0 P1 P2 (ix2 r k) = lnRow (blkRow P0 r) (vecRow P1) (vecRow P2) k := by
  rw [pay4_eq]
  refine (normed_apply _ P1 P2 r k).trans ?_
  refine congrArg (fun x => lnRow x (vecRow P1) (vecRow P2) k) (funext fun k' => ?_)
  exact shapeCast_1ab_ab_apply P0 shapeCasts_S1x512x1024_S512x1024 r k'

/-! ## The two products -/

/-- ENTRY (r, e) OF THE FIRST PRODUCT PLUS ITS BIAS ROW: the normalised row r against column e of the weight, plus bias e. -/
theorem pay5_apply (P0 : Vec Ideal S1x512x1024 .f32) (P1 P2 : Vec Ideal S1024 .f32) (P3 : FVec Ideal S1024x2048 .bf16)
    (P4 : Vec Ideal S2048 .f32) (r : Fin 512) (e : Fin 2048) :
    Gen.k0_pay5 (F := Ideal) P0 P1 P2 P3 P4 (ix2 r e)
      = proj (lnRow (blkRow P0 r) (vecRow P1) (vecRow P2)) (fun k => P3 (ix2 k e)) (P4 (ix1 e)) := by
  have hb : broadcastTo S512x2048 (shapeCast S1x2048 (shapeCast S2048 P4 shapeCasts_S2048_S2048) shapeCasts_S2048_S1x2048)
      broadcasts_S1x2048_S512x2048 (ix2 r e) = P4 (ix1 e) := by
    refine (broadcastTo_1b_ab_apply _ broadcasts_S1x2048_S512x2048 r e).trans ?_
    refine (shapeCast_a_1a_apply _ shapeCasts_S2048_S1x2048 0 e).trans ?_
    rw [shapeCast_self]
  have hm : FloatOps.matmul dot_S512x1024_S1024x2048_S512x2048_1_0_0_1_n_n none (Gen.k0_pay4 (F := Ideal) P0 P1 P2)
      (shapeCast S1024x2048 P3 shapeCasts_S1024x2048_S1024x2048) (constant S512x2048 .f32 0x00000000#32) (ix2 r e)
      = dotRow (lnRow (blkRow P0 r) (vecRow P1) (vecRow P2)) (fun k => P3 (ix2 k e)) := by
    refine (Cert.LibPlainDot.matmul_zero_apply dot_S512x1024_S1024x2048_S512x2048_1_0_0_1_n_n_wf none _ _ r e).trans ?_
    refine Finset.sum_congr rfl fun k _ => ?_
    rw [pay4_apply, shapeCast_self]
  show FloatOps.matmul dot_S512x1024_S1024x2048_S512x2048_1_0_0_1_n_n none (Gen.k0_pay4 (F := Ideal) P0 P1 P2)
      (shapeCast S1024x2048 P3 shapeCasts_S1024x2048_S1024x2048) (constant S512x2048 .f32 0x00000000#32) (ix2 r e)
      + broadcastTo S512x2048 (shapeCast S1x2048 (shapeCast S2048 P4 shapeCasts_S2048_S2048) shapeCasts_S2048_S1x2048)
      broadcasts_S1x2048_S512x2048 (ix2 r e) = _
  rw [hm, hb]
  rfl

/-- ENTRY (r, e) OF THE SECOND PRODUCT: the normalised row r against column e of the second weight. -/
theorem pay6_apply (P0 : Vec Ideal S1x512x1024 .f32) (P1 P2 : Vec Ideal S1024 .f32) (P5 : FVec Ideal S1024x1024 .bf16)
    (r : Fin 512) (e : Fin 1024) :
    Gen.k0_pay6 (F := Ideal) P0 P1 P2 P5 (ix2 r e)
      = dotRow (lnRow (blkRow P0 r) (vecRow P1) (vecRow P2)) (fun k => P5 (ix2 k e)) := by
  show FloatOps.matmul dot_S512x1024_S1024x1024_S512x1024_1_0_0_1_n_n none (Gen.k0_pay4 (F := Ideal) P0 P1 P2)
      (shapeCast S1024x1024 P5 shapeCasts_S1024x1024_S1024x1024) (constant S512x1024 .f32 0x00000000#32) (ix2 r e) = _
  refine (Cert.LibPlainDot.matmul_zero_apply dot_S512x1024_S1024x1024_S512x1024_1_0_0_1_n_n_wf none _ _ r e).trans ?_
  refine Finset.sum_congr rfl fun k _ => ?_
  rw [pay4_apply, shapeCast_self]

end Cert.KernelIdeal.Rows

end
-- ==== Proof.KernelPoint.lean ====
/-
  One entry of each output block, from the blocks the body loads, stated over arbitrary vectors.

  Entry (u, h, r, d) of the query block is entry (r, 64 h + d) of the first product plus bias; entry (u, h, d, r) of the key
  block is its entry (r, 1024 + 64 h + d); entry (u, h, r, d) of the value block is entry (r, 64 h + d) of the second
  product plus entry 64 h + d of its bias. If row r of the loaded input block is row (b, n) of an array x0, the loaded gain and
  offset are x1 and x2, and the loaded weight column and bias entry are the right column and entry of x3 and x4 (x5 and
  x6), the block entry is the query (key, value) of Spec at (b, h, n, d).
-/
import proofs.«143649_j44736379355236_2_alg».proof.Proof.KernelRow
import proofs.«143649_j44736379355236_2_alg».proof.Proof.KernelIdealValue
import proofs.«143649_j44736379355236_2_alg».proof.Proof.Spec

noncomputable section

namespace Cert.KernelIdeal.Point

open Cert.KernelIdeal Idealize.ShloMosaic Idealize.ShloMosaic.ValueIdx Cert.LnQkv Cert.KernelIdeal.Rows

/-- Where the query block's entry (u, h, r, d) reads the first product. -/
theorem ixq (u : Fin 1) (h : Fin 16) (r : Fin 512) (d : Fin 64) (e : Fin 2048) (he : e.val = h.val * 64 + d.val) :
    ValueP.ix7_0 (ix4 u h r d) = ix2 r e :=
  funext fun a => Fin.ext (by
    match a with
    | ⟨0, _⟩ => rfl
    | ⟨1, _⟩ => exact he.symm)

/-- Where the key block's entry (u, h, d, r) reads the first product. -/
theorem ixk (u : Fin 1) (h : Fin 16) (d : Fin 64) (r : Fin 512) (e : Fin 2048) (he : e.val = h.val * 64 + d.val + 1024) :
    ValueP.ix8_0 (ix4 u h d r) = ix2 r e :=
  funext fun a => Fin.ext (by
    match a with
    | ⟨0, _⟩ => rfl
    | ⟨1, _⟩ => exact he.symm)

/-- Where the value block's entry (u, h, r, d) reads the second product, -/
theorem ixv (u : Fin 1) (h : Fin 16) (r : Fin 512) (d : Fin 64) (e : Fin 1024) (he : e.val = h.val * 64 + d.val) :
    ValueP.ix9_0 (ix4 u h r d) = ix2 r e :=
  funext fun a => Fin.ext (by
    match a with
    | ⟨0, _⟩ => rfl
    | ⟨1, _⟩ => exact he.symm)

/-- and its bias. -/
theorem ixvb (u : Fin 1) (h : Fin 16) (r : Fin 512) (d : Fin 64) (e : Fin 1024) (he : e.val = h.val * 64 + d.val) :
    ValueP.ix9_1 (ix4 u h r d) = ix1 e :=
  funext fun a => Fin.ext (by
    match a with
    | ⟨0, _⟩ => exact he.symm)

section
variable (P0 : Vec Ideal S1x512x1024 .f32) (P1 P2 : Vec Ideal S1024 .f32)
  (x0 : (⟨3, ![8, 2048, 1024]⟩ : Shape).Idx → EReal) (x1 x2 : (⟨1, ![1024]⟩ : Shape).Idx → EReal)
  (b : Fin 8) (n : Fin 2048) (r : Fin 512)

/-- The normalised row of the block is the normalised row of the array it is a row of. -/
theorem row_eq (h0 : ∀ k : Fin 1024, P0 (ix3 (0 : Fin 1) r k) = x0 (ix3 b n k))
    (h1 : ∀ k : Fin 1024, P1 (ix1 k) = x1 (ix1 k)) (h2 : ∀ k : Fin 1024, P2 (ix1 k) = x2 (ix1 k)) :
    lnRow (blkRow P0 r) (vecRow P1) (vecRow P2) = normRow x0 x1 x2 b n := by
  unfold normRow
  rw [show blkRow P0 r = fun k => x0 (ix3 b n k) from funext h0, show vecRow P1 = fun k => x1 (ix1 k) from funext h1,
    show vecRow P2 = fun k => x2 (ix1 k) from funext h2]

/-- THE QUERY BLOCK'S ENTRY (u, h, r, d). -/
theorem q_point (P3 : FVec Ideal S1024x2048 .bf16) (P4 : Vec Ideal S2048 .f32)
    (x3 : (⟨2, ![1024, 2048]⟩ : Shape).Idx → EReal) (x4 : (⟨1, ![2048]⟩ : Shape).Idx → EReal)
    (u : Fin 1) (h : Fin 16) (d : Fin 64)
    (h0 : ∀ k : Fin 1024, P0 (ix3 (0 : Fin 1) r k) = x0 (ix3 b n k))
    (h1 : ∀ k : Fin 1024, P1 (ix1 k) = x1 (ix1 k)) (h2 : ∀ k : Fin 1024, P2 (ix1 k) = x2 (ix1 k))
    (e : Fin 2048) (he : e.val = h.val * 64 + d.val)
    (h3 : ∀ k : Fin 1024, P3 (ix2 k e) = x3 (ix2 k (colQ h d))) (h4 : P4 (ix1 e) = x4 (ix1 (colQ h d))) :
    ValueP.E7 (F := Ideal) P0 P1 P2 P3 P4 (ix4 u h r d) = qAt x0 x1 x2 x3 x4 b h n d := by
  show Gen.k0_pay5 (F := Ideal) P0 P1 P2 P3 P4 (ValueP.ix7_0 (ix4 u h r d)) = _
  rw [ixq u h r d e he, pay5_apply, row_eq P0 P1 P2 x0 x1 x2 b n r h0 h1 h2,
    show (fun k => P3 (ix2 k e)) = fun k => x3 (ix2 k (colQ h d)) from funext h3, h4]
  rfl

/-- THE KEY BLOCK'S ENTRY (u, h, d, r). -/
theorem k_point (P3 : FVec Ideal S1024x2048 .bf16) (P4 : Vec Ideal S2048 .f32)
    (x3 : (⟨2, ![1024, 2048]⟩ : Shape).Idx → EReal) (x4 : (⟨1, ![2048]⟩ : Shape).Idx → EReal)
    (u : Fin 1) (h : Fin 16) (d : Fin 64)
    (h0 : ∀ k : Fin 1024, P0 (ix3 (0 : Fin 1) r k) = x0 (ix3 b n k))
    (h1 : ∀ k : Fin 1024, P1 (ix1 k) = x1 (ix1 k)) (h2 : ∀ k : Fin 1024, P2 (ix1 k) = x2 (ix1 k))
    (e : Fin 2048) (he : e.val = h.val * 64 + d.val + 1024)
    (h3 : ∀ k : Fin 1024, P3 (ix2 k e) = x3 (ix2 k (colK h d))) (h4 : P4 (ix1 e) = x4 (ix1 (colK h d))) :
    ValueP.E8 (F := Ideal) P0 P1 P2 P3 P4 (ix4 u h d r) = kAt x0 x1 x2 x3 x4 b h d n := by
  show Gen.k0_pay5 (F := Ideal) P0 P1 P2 P3 P4 (ValueP.ix8_0 (ix4 u h d r)) = _
  rw [ixk u h d r e he, pay5_apply, row_eq P0 P1 P2 x0 x1 x2 b n r h0 h1 h2,
    show (fun k => P3 (ix2 k e)) = fun k => x3 (ix2 k (colK h d)) from funext h3, h4]
  rfl

/-- THE VALUE BLOCK'S ENTRY (u, h, r, d). -/
theorem v_point (P5 : FVec Ideal S1024x1024 .bf16) (P6 : Vec Ideal S1024 .f32)
    (x5 : (⟨2, ![1024, 1024]⟩ : Shape).Idx → EReal) (x6 : (⟨1, ![1024]⟩ : Shape).Idx → EReal)
    (u : Fin 1) (h : Fin 16) (d : Fin 64)
    (h0 : ∀ k : Fin 1024, P0 (ix3 (0 : Fin 1) r k) = x0 (ix3 b n k))
    (h1 : ∀ k : Fin 1024, P1 (ix1 k) = x1 (ix1 k)) (h2 : ∀ k : Fin 1024, P2 (ix1 k) = x2 (ix1 k))
    (e : Fin 1024) (he : e.val = h.val * 64 + d.val)
    (h5 : ∀ k : Fin 1024, P5 (ix2 k e) = x5 (ix2 k (colV h d))) (h6 : P6 (ix1 e) = x6 (ix1 (colV h d))) :
    ValueP.E9 (F := Ideal) P0 P1 P2 P5 P6 (ix4 u h r d) = vAt x0 x1 x2 x5 x6 b h n d := by
  show Gen.k0_pay6 (F := Ideal) P0 P1 P2 P5 (ValueP.ix9_0 (ix4 u h r d)) + P6 (ValueP.ix9_1 (ix4 u h r d)) = _
  rw [ixv u h r d e he, ixvb u h r d e he, pay6_apply, row_eq P0 P1 P2 x0 x1 x2 b n r h0 h1 h2,
    show (fun k => P5 (ix2 k e)) = fun k => x5 (ix2 k (colV h d)) from funext h5, h6]
  rfl

end

end Cert.KernelIdeal.Point

end
-- ==== Proof.Final.lean ====
/-
  The three result arrays after the kernel's run, as functions of the argument arrays.

  What a point writes back to each output window is that window's block of the whole-array function of Spec (the
  queries Gq, the keys Gk, the values Gv) of the seven arguments: entry by entry, the block's entry is the per-point
  lemma of KernelPoint with the point's input blocks read as rows of the arguments (BlockReads) and the prepared weight
  and bias read as columns of the interleaved ones (HostPrep). The 32 blocks of each output tile its array, so each
  array ends holding its function.
-/
import proofs.«143649_j44736379355236_2_alg».proof.Proof.BlockReads
import proofs.«143649_j44736379355236_2_alg».proof.Proof.KernelPoint
import proofs.«143649_j44736379355236_2_alg».proof.Proof.KernelIdealValue
import proofs.«143649_j44736379355236_2_alg».proof.Proof.Spec

noncomputable section

namespace Cert.KernelIdeal.Final

open Cert.KernelIdeal Cert.KernelIdeal.Gen Idealize.ShloMosaic Idealize.ShloMosaic.TcCoe Idealize.ShloMosaic.ValueIdx Idealize.SL.Sem
open Idealize.ShloMosaic.Pipeline (Dat)
open Cert.LnQkv Cert.KernelIdeal.Reads

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ) (ρ : Dev nD → PrngReg)

/-- The seven argument arrays as launched, as plain functions of an index. -/
abbrev a0 (c : Dev nD) : (⟨3, ![8, 2048, 1024]⟩ : Shape).Idx → EReal := m ((c : Thread nD τ).loc main_arg0)
abbrev a1 (c : Dev nD) : (⟨1, ![1024]⟩ : Shape).Idx → EReal := m ((c : Thread nD τ).loc main_arg1)
abbrev a2 (c : Dev nD) : (⟨1, ![1024]⟩ : Shape).Idx → EReal := m ((c : Thread nD τ).loc main_arg2)
abbrev a3 (c : Dev nD) : (⟨2, ![1024, 2048]⟩ : Shape).Idx → EReal := m ((c : Thread nD τ).loc main_arg3)
abbrev a4 (c : Dev nD) : (⟨1, ![2048]⟩ : Shape).Idx → EReal := m ((c : Thread nD τ).loc main_arg4)
abbrev a5 (c : Dev nD) : (⟨2, ![1024, 1024]⟩ : Shape).Idx → EReal := m ((c : Thread nD τ).loc main_arg5)
abbrev a6 (c : Dev nD) : (⟨1, ![1024]⟩ : Shape).Idx → EReal := m ((c : Thread nD τ).loc main_arg6)

/-! ## The queries -/

/-- WHAT POINT t WRITES BACK TO THE QUERIES is block t of Gq. -/
theorem flushed7_eq (c : Dev nD) (t : Fin cfg0.N) :
    (dats m 0 c).flushed 7 t
      = ((cfg0.win 7).blk t).view.read (Elt Ideal) (Gq (a0 m c) (a1 m c) (a2 m c) (a3 m c) (a4 m c)) := by
  obtain ⟨f02, f1, f2, f30, f31, f4, f50, f51, f6, f70, f71, f72, f73, f80, f81, f82, f83, f90, f91, f92, f93, fb0, fb1⟩ := idx_facts t
  rw [ValueP.flushed7]
  unfold out0_7
  simp only [View.ld_unit_zero (S := S1x512x1024) hz3, View.ld_unit_zero (S := S1024) hz1,
    View.ld_unit_zero (S := S1024x2048) hz2, View.ld_unit_zero (S := S2048) hz1]
  funext y
  obtain ⟨u, h, r, d, rfl⟩ : ∃ (u : Fin 1) (h : Fin 16) (r : Fin 512) (d : Fin 64), y = ix4 u h r d :=
    ⟨y 0, y 1, y 2, y 3, eq_ix4 y⟩
  have hu := u.isLt; have hh := h.isLt; have hr := r.isLt; have hd := d.isLt
  rw [View.read_apply]
  obtain ⟨b, hb⟩ : ∃ b : Fin 8, b.val = win0_0.index t (0 : Fin 3) := ⟨⟨_, fb0⟩, rfl⟩
  obtain ⟨n, hn⟩ : ∃ n : Fin 2048, n.val = win0_0.index t (1 : Fin 3) * 512 + r.val := ⟨⟨_, by omega⟩, rfl⟩
  have hemb : ((cfg0.win 7).blk t).view.emb (ix4 u h r d) = ix4 b h n d := by
    funext a
    apply Fin.ext
    match a with
    | ⟨0, _⟩ => show win0_7.index t (0 : Fin 4) * 1 + 1 * u.val = b.val; omega
    | ⟨1, _⟩ => show win0_7.index t (1 : Fin 4) * 16 + 1 * h.val = h.val; omega
    | ⟨2, _⟩ => show win0_7.index t (2 : Fin 4) * 512 + 1 * r.val = n.val; omega
    | ⟨3, _⟩ => show win0_7.index t (3 : Fin 4) * 64 + 1 * d.val = d.val; omega
  show View.canon (Val := Elt Ideal) (s := S1x16x512x64) (e := EltTy.f32) _ (ix4 u h r d) = Gq (a0 m c) (a1 m c) (a2 m c) (a3 m c) (a4 m c) (((cfg0.win 7).blk t).view.emb (ix4 u h r d))
  rw [hemb, Gq_apply]
  refine (ValueP.canon7_eq (iblk m c 0 t) (iblk m c 1 t) (iblk m c 2 t) (iblk m c 3 t) (iblk m c 4 t) (ix4 u h r d)).trans ?_
  refine Point.q_point (iblk m c 0 t) (iblk m c 1 t) (iblk m c 2 t) (a0 m c) (a1 m c) (a2 m c) b n r (iblk m c 3 t) (iblk m c 4 t)
    (a3 m c) (a4 m c) u h d
    (fun k => in0_apply m c t r k b n hb hn f02) (fun k => in1_apply m c t k f1) (fun k => in2_apply m c t k f2)
    (⟨h.val * 64 + d.val, by omega⟩ : Fin 2048) rfl (fun k => ?_) ?_
  · exact (in3_apply m c t k _ f30 f31).trans
      (HostPrep.weight_apply_left m c k _ (colQ h d) (by show h.val * 64 + d.val < 1024; omega)
        (by show 2 * (64 * h.val + d.val) = 2 * (h.val * 64 + d.val); omega))
  · exact (in4_apply m c t _ f4).trans
      (HostPrep.bias_apply_left m c _ (colQ h d) (by show h.val * 64 + d.val < 1024; omega)
        (by show 2 * (64 * h.val + d.val) = 2 * (h.val * 64 + d.val); omega))

/-- An index of the queries is in point t's block iff each coordinate is in the block's range on its axis. -/
theorem mem_blk7 (t : Fin cfg0.N) (i : S8x16x2048x64.Idx) :
    i ∈ ((cfg0.win 7).blk t).view.set ↔ ∀ a : Fin 4, win0_7.index t a * S1x16x512x64.size a ≤ (i a).val
      ∧ (i a).val < win0_7.index t a * S1x16x512x64.size a + S1x16x512x64.size a := by
  show i ∈ ((View.whole main_v14_0).slice (win0_7.rect t)).set ↔ _
  rw [View.set_slice_whole, Rect.mem_set_unit]
  exact Iff.rfl

/-- The 32 blocks cover the queries: position n of batch b is in the block of point (b, n / 512). -/
theorem cover7 (i : S8x16x2048x64.Idx) : ∃ t : Fin cfg0.N, (cfg0.win 7).flush t = true ∧ i ∈ ((cfg0.win 7).blk t).view.set := by
  have h0 : (i 0).val < 8 := (i 0).isLt
  have h1 : (i 1).val < 16 := (i 1).isLt
  have h2 : (i 2).val < 2048 := (i 2).isLt
  have h3 : (i 3).val < 64 := (i 3).isLt
  obtain ⟨t, ht0, ht1⟩ := idx_onto ⟨(i 0).val, h0⟩ ⟨(i 2).val / 512, by omega⟩
  have q0 : win0_0.index t (0 : Fin 3) = (i 0).val := ht0
  have q1 : win0_0.index t (1 : Fin 3) = (i 2).val / 512 := ht1
  obtain ⟨f02, f1, f2, f30, f31, f4, f50, f51, f6, f70, f71, f72, f73, f80, f81, f82, f83, f90, f91, f92, f93, fb0, fb1⟩ := idx_facts t
  refine ⟨t, flush0_7 t, ?_⟩
  rw [mem_blk7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 512 ≤ (i 2).val ∧ (i 2).val < win0_7.index t (2 : Fin 4) * 512 + 512; omega
  | ⟨3, _⟩ => show win0_7.index t (3 : Fin 4) * 64 ≤ (i 3).val ∧ (i 3).val < win0_7.index t (3 : Fin 4) * 64 + 64; omega

/-- THE QUERIES after the run. -/
theorem final7 (c : Dev nD) : (dats m 0 c).arrAt 7 cfg0.N = Gq (a0 m c) (a1 m c) (a2 m c) (a3 m c) (a4 m c) :=
  (dats m 0 c).arrAt_eq_of_cover 7 (Gq (a0 m c) (a1 m c) (a2 m c) (a3 m c) (a4 m c)) (fun t _ => flushed7_eq m c t) cover7

/-! ## The keys -/

/-- WHAT POINT t WRITES BACK TO THE KEYS is block t of Gk. -/
theorem flushed8_eq (c : Dev nD) (t : Fin cfg0.N) :
    (dats m 0 c).flushed 8 t
      = ((cfg0.win 8).blk t).view.read (Elt Ideal) (Gk (a0 m c) (a1 m c) (a2 m c) (a3 m c) (a4 m c)) := by
  obtain ⟨f02, f1, f2, f30, f31, f4, f50, f51, f6, f70, f71, f72, f73, f80, f81, f82, f83, f90, f91, f92, f93, fb0, fb1⟩ := idx_facts t
  rw [ValueP.flushed8]
  unfold out0_8
  simp only [View.ld_unit_zero (S := S1x512x1024) hz3, View.ld_unit_zero (S := S1024) hz1,
    View.ld_unit_zero (S := S1024x2048) hz2, View.ld_unit_zero (S := S2048) hz1]
  funext y
  obtain ⟨u, h, d, r, rfl⟩ : ∃ (u : Fin 1) (h : Fin 16) (d : Fin 64) (r : Fin 512), y = ix4 u h d r :=
    ⟨y 0, y 1, y 2, y 3, eq_ix4 y⟩
  have hu := u.isLt; have hh := h.isLt; have hr := r.isLt; have hd := d.isLt
  rw [View.read_apply]
  obtain ⟨b, hb⟩ : ∃ b : Fin 8, b.val = win0_0.index t (0 : Fin 3) := ⟨⟨_, fb0⟩, rfl⟩
  obtain ⟨n, hn⟩ : ∃ n : Fin 2048, n.val = win0_0.index t (1 : Fin 3) * 512 + r.val := ⟨⟨_, by omega⟩, rfl⟩
  have hemb : ((cfg0.win 8).blk t).view.emb (ix4 u h d r) = ix4 b h d n := by
    funext a
    apply Fin.ext
    match a with
    | ⟨0, _⟩ => show win0_8.index t (0 : Fin 4) * 1 + 1 * u.val = b.val; omega
    | ⟨1, _⟩ => show win0_8.index t (1 : Fin 4) * 16 + 1 * h.val = h.val; omega
    | ⟨2, _⟩ => show win0_8.index t (2 : Fin 4) * 64 + 1 * d.val = d.val; omega
    | ⟨3, _⟩ => show win0_8.index t (3 : Fin 4) * 512 + 1 * r.val = n.val; omega
  show View.canon (Val := Elt Ideal) (s := S1x16x64x512) (e := EltTy.f32) _ (ix4 u h d r) = Gk (a0 m c) (a1 m c) (a2 m c) (a3 m c) (a4 m c) (((cfg0.win 8).blk t).view.emb (ix4 u h d r))
  rw [hemb, Gk_apply]
  refine (ValueP.canon8_eq (iblk m c 0 t) (iblk m c 1 t) (iblk m c 2 t) (iblk m c 3 t) (iblk m c 4 t) (ix4 u h d r)).trans ?_
  refine Point.k_point (iblk m c 0 t) (iblk m c 1 t) (iblk m c 2 t) (a0 m c) (a1 m c) (a2 m c) b n r (iblk m c 3 t) (iblk m c 4 t)
    (a3 m c) (a4 m c) u h d
    (fun k => in0_apply m c t r k b n hb hn f02) (fun k => in1_apply m c t k f1) (fun k => in2_apply m c t k f2)
    (⟨h.val * 64 + d.val + 1024, by omega⟩ : Fin 2048) rfl (fun k => ?_) ?_
  · exact (in3_apply m c t k _ f30 f31).trans
      (HostPrep.weight_apply_right m c k _ (colK h d) (by show 1024 ≤ h.val * 64 + d.val + 1024; omega)
        (by show 2 * (64 * h.val + d.val) + 1 = 2 * (h.val * 64 + d.val + 1024 - 1024) + 1; omega))
  · exact (in4_apply m c t _ f4).trans
      (HostPrep.bias_apply_right m c _ (colK h d) (by show 1024 ≤ h.val * 64 + d.val + 1024; omega)
        (by show 2 * (64 * h.val + d.val) + 1 = 2 * (h.val * 64 + d.val + 1024 - 1024) + 1; omega))

/-- An index of the keys is in point t's block iff each coordinate is in the block's range on its axis. -/
theorem mem_blk8 (t : Fin cfg0.N) (i : S8x16x64x2048.Idx) :
    i ∈ ((cfg0.win 8).blk t).view.set ↔ ∀ a : Fin 4, win0_8.index t a * S1x16x64x512.size a ≤ (i a).val
      ∧ (i a).val < win0_8.index t a * S1x16x64x512.size a + S1x16x64x512.size a := by
  show i ∈ ((View.whole main_v14_1).slice (win0_8.rect t)).set ↔ _
  rw [View.set_slice_whole, Rect.mem_set_unit]
  exact Iff.rfl

/-- The 32 blocks cover the keys: position n of batch b is in the block of point (b, n / 512). -/
theorem cover8 (i : S8x16x64x2048.Idx) : ∃ t : Fin cfg0.N, (cfg0.win 8).flush t = true ∧ i ∈ ((cfg0.win 8).blk t).view.set := by
  have h0 : (i 0).val < 8 := (i 0).isLt
  have h1 : (i 1).val < 16 := (i 1).isLt
  have h2 : (i 2).val < 64 := (i 2).isLt
  have h3 : (i 3).val < 2048 := (i 3).isLt
  obtain ⟨t, ht0, ht1⟩ := idx_onto ⟨(i 0).val, h0⟩ ⟨(i 3).val / 512, by omega⟩
  have q0 : win0_0.index t (0 : Fin 3) = (i 0).val := ht0
  have q1 : win0_0.index t (1 : Fin 3) = (i 3).val / 512 := ht1
  obtain ⟨f02, f1, f2, f30, f31, f4, f50, f51, f6, f70, f71, f72, f73, f80, f81, f82, f83, f90, f91, f92, f93, fb0, fb1⟩ := idx_facts t
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 16 ≤ (i 1).val ∧ (i 1).val < win0_8.index t (1 : Fin 4) * 16 + 16; omega
  | ⟨2, _⟩ => show win0_8.index t (2 : Fin 4) * 64 ≤ (i 2).val ∧ (i 2).val < win0_8.index t (2 : Fin 4) * 64 + 64; omega
  | ⟨3, _⟩ => show win0_8.index t (3 : Fin 4) * 512 ≤ (i 3).val ∧ (i 3).val < win0_8.index t (3 : Fin 4) * 512 + 512; omega

/-- THE KEYS after the run. -/
theorem final8 (c : Dev nD) : (dats m 0 c).arrAt 8 cfg0.N = Gk (a0 m c) (a1 m c) (a2 m c) (a3 m c) (a4 m c) :=
  (dats m 0 c).arrAt_eq_of_cover 8 (Gk (a0 m c) (a1 m c) (a2 m c) (a3 m c) (a4 m c)) (fun t _ => flushed8_eq m c t) cover8

/-! ## The values -/

/-- WHAT POINT t WRITES BACK TO THE VALUES is block t of Gv. -/
theorem flushed9_eq (c : Dev nD) (t : Fin cfg0.N) :
    (dats m 0 c).flushed 9 t
      = ((cfg0.win 9).blk t).view.read (Elt Ideal) (Gv (a0 m c) (a1 m c) (a2 m c) (a5 m c) (a6 m c)) := by
  obtain ⟨f02, f1, f2, f30, f31, f4, f50, f51, f6, f70, f71, f72, f73, f80, f81, f82, f83, f90, f91, f92, f93, fb0, fb1⟩ := idx_facts t
  rw [ValueP.flushed9]
  unfold out0_9
  simp only [View.ld_unit_zero (S := S1x512x1024) hz3, View.ld_unit_zero (S := S1024) hz1,
    View.ld_unit_zero (S := S1024x1024) hz2]
  funext y
  obtain ⟨u, h, r, d, rfl⟩ : ∃ (u : Fin 1) (h : Fin 16) (r : Fin 512) (d : Fin 64), y = ix4 u h r d :=
    ⟨y 0, y 1, y 2, y 3, eq_ix4 y⟩
  have hu := u.isLt; have hh := h.isLt; have hr := r.isLt; have hd := d.isLt
  rw [View.read_apply]
  obtain ⟨b, hb⟩ : ∃ b : Fin 8, b.val = win0_0.index t (0 : Fin 3) := ⟨⟨_, fb0⟩, rfl⟩
  obtain ⟨n, hn⟩ : ∃ n : Fin 2048, n.val = win0_0.index t (1 : Fin 3) * 512 + r.val := ⟨⟨_, by omega⟩, rfl⟩
  have hemb : ((cfg0.win 9).blk t).view.emb (ix4 u h r d) = ix4 b h n d := by
    funext a
    apply Fin.ext
    match a with
    | ⟨0, _⟩ => show win0_9.index t (0 : Fin 4) * 1 + 1 * u.val = b.val; omega
    | ⟨1, _⟩ => show win0_9.index t (1 : Fin 4) * 16 + 1 * h.val = h.val; omega
    | ⟨2, _⟩ => show win0_9.index t (2 : Fin 4) * 512 + 1 * r.val = n.val; omega
    | ⟨3, _⟩ => show win0_9.index t (3 : Fin 4) * 64 + 1 * d.val = d.val; omega
  show View.canon (Val := Elt Ideal) (s := S1x16x512x64) (e := EltTy.f32) _ (ix4 u h r d) = Gv (a0 m c) (a1 m c) (a2 m c) (a5 m c) (a6 m c) (((cfg0.win 9).blk t).view.emb (ix4 u h r d))
  rw [hemb, Gv_apply]
  refine (ValueP.canon9_eq (iblk m c 0 t) (iblk m c 1 t) (iblk m c 2 t) (iblk m c 5 t) (iblk m c 6 t) (ix4 u h r d)).trans ?_
  refine Point.v_point (iblk m c 0 t) (iblk m c 1 t) (iblk m c 2 t) (a0 m c) (a1 m c) (a2 m c) b n r (iblk m c 5 t) (iblk m c 6 t)
    (a5 m c) (a6 m c) u h d
    (fun k => in0_apply m c t r k b n hb hn f02) (fun k => in1_apply m c t k f1) (fun k => in2_apply m c t k f2)
    (⟨h.val * 64 + d.val, by omega⟩ : Fin 1024) rfl (fun k => ?_) ?_
  · refine (in5_apply m c t k _ f50 f51).trans (congrArg _ (congrArg (ix2 k) (Fin.ext ?_)))
    show h.val * 64 + d.val = 64 * h.val + d.val; omega
  · refine (in6_apply m c t _ f6).trans (congrArg _ (congrArg ix1 (Fin.ext ?_)))
    show h.val * 64 + d.val = 64 * h.val + d.val; omega

/-- An index of the values is in point t's block iff each coordinate is in the block's range on its axis. -/
theorem mem_blk9 (t : Fin cfg0.N) (i : S8x16x2048x64.Idx) :
    i ∈ ((cfg0.win 9).blk t).view.set ↔ ∀ a : Fin 4, win0_9.index t a * S1x16x512x64.size a ≤ (i a).val
      ∧ (i a).val < win0_9.index t a * S1x16x512x64.size a + S1x16x512x64.size a := by
  show i ∈ ((View.whole main_v14_2).slice (win0_9.rect t)).set ↔ _
  rw [View.set_slice_whole, Rect.mem_set_unit]
  exact Iff.rfl

/-- The 32 blocks cover the values. -/
theorem cover9 (i : S8x16x2048x64.Idx) : ∃ t : Fin cfg0.N, (cfg0.win 9).flush t = true ∧ i ∈ ((cfg0.win 9).blk t).view.set := by
  have h0 : (i 0).val < 8 := (i 0).isLt
  have h1 : (i 1).val < 16 := (i 1).isLt
  have h2 : (i 2).val < 2048 := (i 2).isLt
  have h3 : (i 3).val < 64 := (i 3).isLt
  obtain ⟨t, ht0, ht1⟩ := idx_onto ⟨(i 0).val, h0⟩ ⟨(i 2).val / 512, by omega⟩
  have q0 : win0_0.index t (0 : Fin 3) = (i 0).val := ht0
  have q1 : win0_0.index t (1 : Fin 3) = (i 2).val / 512 := ht1
  obtain ⟨f02, f1, f2, f30, f31, f4, f50, f51, f6, f70, f71, f72, f73, f80, f81, f82, f83, f90, f91, f92, f93, fb0, fb1⟩ := idx_facts t
  refine ⟨t, flush0_9 t, ?_⟩
  rw [mem_blk9]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 16 ≤ (i 1).val ∧ (i 1).val < win0_9.index t (1 : Fin 4) * 16 + 16; omega
  | ⟨2, _⟩ => show win0_9.index t (2 : Fin 4) * 512 ≤ (i 2).val ∧ (i 2).val < win0_9.index t (2 : Fin 4) * 512 + 512; omega
  | ⟨3, _⟩ => show win0_9.index t (3 : Fin 4) * 64 ≤ (i 3).val ∧ (i 3).val < win0_9.index t (3 : Fin 4) * 64 + 64; omega

/-- THE VALUES after the run. -/
theorem final9 (c : Dev nD) : (dats m 0 c).arrAt 9 cfg0.N = Gv (a0 m c) (a1 m c) (a2 m c) (a5 m c) (a6 m c) :=
  (dats m 0 c).arrAt_eq_of_cover 9 (Gv (a0 m c) (a1 m c) (a2 m c) (a5 m c) (a6 m c)) (fun t _ => flushed9_eq m c t) cover9

/-! ## The run, read -/

/-- Every execution of the kernel's program terminates with the three results at Gq, Gk, Gv of the arguments as launched,
    the arguments unchanged. -/
theorem run : θ_run defs (onTc (τ := τ) (main (F := Ideal))) ⟨m, fun _ => 0, ρ⟩ fun r => ∀ c : Dev nD,
      r.2.mem ((c : Thread nD τ).loc main_v14_0) = Gq (a0 m c) (a1 m c) (a2 m c) (a3 m c) (a4 m c)
      ∧ r.2.mem ((c : Thread nD τ).loc main_v14_1) = Gk (a0 m c) (a1 m c) (a2 m c) (a3 m c) (a4 m c)
      ∧ r.2.mem ((c : Thread nD τ).loc main_v14_2) = Gv (a0 m c) (a1 m c) (a2 m c) (a5 m c) (a6 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c),
      (h c).2.2.1.trans (final9 m c), (h c).2.2.2⟩)
    (ValueP.run_blocks m ρ)

end Cert.KernelIdeal.Final

end
-- ==== Proof.RefRow.lean ====
/-
  The reference, one row and one column at a time, on the extended reals.

  Row (b, n) of the value the reference feeds both products is the layer normalisation (Spec: lnRow) of row (b, n) of
  the input with the gain and offset vectors: its sums start from the float zero, which adds nothing. Entry (b, n, e)
  of the first product plus its bias is that row against column e of the interleaved weight, plus entry e of the bias;
  the query at (b, h, n, d) is its entry at column 2 (64 h + d), the key at (b, h, d, n) its entry at column
  2 (64 h + d) + 1 (the reshape to [.., 16, 64, 2] followed by the two unit slices and the transposes), and the value at
  (b, h, n, d) is entry 64 h + d of the second product plus its bias.
-/
import proofs.«143649_j44736379355236_2_alg».proof.Proof.Gen.ReferenceIdeal.Read
import proofs.«143649_j44736379355236_2_alg».proof.Proof.Spec
import Idealize.ShloMosaic.Lib.ValueIdx
import Idealize.ShloMosaic.PureOps.Ideal.Laws

noncomputable section

open scoped BigOperators

namespace Cert.ReferenceIdeal.Rows

open Cert.ReferenceIdeal Cert.ReferenceIdeal.Gen Cert.ReferenceIdeal.Read Idealize.ShloMosaic Idealize.ShloMosaic.ValueIdx Cert.LnQkv

/-- Row (b, n) of the input. -/
abbrev inRow (x0 : (⟨S8x2048x1024, .f32⟩ : BufTy).Contents (Elt Ideal)) (b : Fin 8) (n : Fin 2048) : Fin 1024 → EReal :=
  fun k => x0 (ix3 b n k)
/-- A vector of 1024 entries as a row. -/
abbrev vecRow (x : (⟨S1024, .f32⟩ : BufTy).Contents (Elt Ideal)) : Fin 1024 → EReal := fun k => x (ix1 k)

/-! ## Indices -/

theorem idx_row (b : Fin 8) (n : Fin 2048) (u : Fin 1) (k : Fin 1024) :
    idx_main_v0 (idx_main_v1 (ix3 b n u)) k = ix3 b n k :=
  funext fun a => Fin.ext (by match a with | ⟨0, _⟩ => rfl | ⟨1, _⟩ => rfl | ⟨2, _⟩ => rfl)
theorem idx_row' (b : Fin 8) (n : Fin 2048) (u : Fin 1) (k : Fin 1024) :
    idx_main_v7 (idx_main_v8 (ix3 b n u)) k = ix3 b n k :=
  funext fun a => Fin.ext (by match a with | ⟨0, _⟩ => rfl | ⟨1, _⟩ => rfl | ⟨2, _⟩ => rfl)
theorem idx_col4 (b : Fin 8) (n : Fin 2048) (k : Fin 1024) : idx_main_v4 (ix3 b n k) = ix3 b n (0 : Fin 1) :=
  funext fun a => Fin.ext (by match a with | ⟨0, _⟩ => rfl | ⟨1, _⟩ => rfl | ⟨2, _⟩ => rfl)
theorem idx_col11 (b : Fin 8) (n : Fin 2048) (k : Fin 1024) : idx_main_v11 (ix3 b n k) = ix3 b n (0 : Fin 1) :=
  funext fun a => Fin.ext (by match a with | ⟨0, _⟩ => rfl | ⟨1, _⟩ => rfl | ⟨2, _⟩ => rfl)
theorem idx_col16 (b : Fin 8) (n : Fin 2048) (k : Fin 1024) : idx_main_v16 (ix3 b n k) = ix3 b n (0 : Fin 1) :=
  funext fun a => Fin.ext (by match a with | ⟨0, _⟩ => rfl | ⟨1, _⟩ => rfl | ⟨2, _⟩ => rfl)
theorem idx_gain (b : Fin 8) (n : Fin 2048) (k : Fin 1024) : idx_main_v18 (idx_main_v19 (ix3 b n k)) = ix1 k :=
  funext fun a => Fin.ext (by match a with | ⟨0, _⟩ => rfl)
theorem idx_offset (b : Fin 8) (n : Fin 2048) (k : Fin 1024) : idx_main_v21 (idx_main_v22 (ix3 b n k)) = ix1 k :=
  funext fun a => Fin.ext (by match a with | ⟨0, _⟩ => rfl)

/-! ## The normalisation -/

theorem mean_apply (x0 : (⟨S8x2048x1024, .f32⟩ : BufTy).Contents (Elt Ideal)) (b : Fin 8) (n : Fin 2048) (u : Fin 1) :
    val_main_v3 (F := Ideal) x0 (ix3 b n u) = rowMean (inRow x0 b n) := by
  rw [val_main_v3_apply, val_main_v1_apply, val_main_v0_apply, val_main_v2_apply, val_main_cst_0_apply, val_main_cst_apply]
  unfold rowMean
  simp only [Ideal.hostDivf_def, Ideal.ofBits_def, Ideal.ofBits_zero_f32, zero_add, idx_row]

theorem var_apply (x0 : (⟨S8x2048x1024, .f32⟩ : BufTy).Contents (Elt Ideal)) (b : Fin 8) (n : Fin 2048) (u : Fin 1) :
    val_main_v10 (F := Ideal) x0 (ix3 b n u) = rowVar (inRow x0 b n) := by
  rw [val_main_v10_apply, val_main_v8_apply, val_main_v7_apply, val_main_v9_apply, val_main_cst_2_apply, val_main_cst_1_apply]
  unfold rowVar
  simp only [Ideal.hostDivf_def, Ideal.ofBits_def, Ideal.ofBits_zero_f32, zero_add, idx_row']
  refine congrArg (Ideal.div · _) (Finset.sum_congr rfl fun k _ => ?_)
  rw [val_main_v6_apply, val_main_v5_apply, val_main_v4_apply, idx_col4, mean_apply]
  rfl

/-- ROW (b, n) OF THE VALUE FED TO THE PRODUCTS: the layer normalisation of row (b, n) of the input. -/
theorem v23_apply (x0 : (⟨S8x2048x1024, .f32⟩ : BufTy).Contents (Elt Ideal)) (x1 x2 : (⟨S1024, .f32⟩ : BufTy).Contents (Elt Ideal))
    (b : Fin 8) (n : Fin 2048) (k : Fin 1024) :
    val_main_v23 (F := Ideal) x0 x1 x2 (ix3 b n k) = lnRow (inRow x0 b n) (vecRow x1) (vecRow x2) k := by
  rw [val_main_v23_apply, val_main_v20_apply, val_main_v17_apply, val_main_v12_apply, val_main_v11_apply, idx_col11, mean_apply,
    val_main_v16_apply, idx_col16, val_main_v15_apply, val_main_v14_apply, var_apply, val_main_v13_apply, val_main_cst_3_apply,
    val_main_v19_apply, val_main_v18_apply, idx_gain, val_main_v22_apply, val_main_v21_apply, idx_offset]
  rfl

/-! ## The two products -/

theorem lidx24 (b : Fin 8) (n : Fin 2048) (e : Fin 2048) (k : Fin 1024) : lidx_main_v24 (ix3 b n e) k = ix3 b n k :=
  funext fun a => Fin.ext (by match a with | ⟨0, _⟩ => rfl | ⟨1, _⟩ => rfl | ⟨2, _⟩ => rfl)
theorem ridx24 (b : Fin 8) (n : Fin 2048) (e : Fin 2048) (k : Fin 1024) : ridx_main_v24 (ix3 b n e) k = ix2 k e :=
  funext fun a => Fin.ext (by match a with | ⟨0, _⟩ => rfl | ⟨1, _⟩ => rfl)
theorem idx_bias27 (b : Fin 8) (n : Fin 2048) (e : Fin 2048) : idx_main_v25 (idx_main_v26 (ix3 b n e)) = ix1 e :=
  funext fun a => Fin.ext (by match a with | ⟨0, _⟩ => rfl)
theorem lidx33 (b : Fin 8) (n : Fin 2048) (e : Fin 1024) (k : Fin 1024) : lidx_main_v33 (ix3 b n e) k = ix3 b n k :=
  funext fun a => Fin.ext (by match a with | ⟨0, _⟩ => rfl | ⟨1, _⟩ => rfl | ⟨2, _⟩ => rfl)
theorem ridx33 (b : Fin 8) (n : Fin 2048) (e : Fin 1024) (k : Fin 1024) : ridx_main_v33 (ix3 b n e) k = ix2 k e :=
  funext fun a => Fin.ext (by match a with | ⟨0, _⟩ => rfl | ⟨1, _⟩ => rfl)
theorem idx_bias36 (b : Fin 8) (n : Fin 2048) (e : Fin 1024) : idx_main_v34 (idx_main_v35 (ix3 b n e)) = ix1 e :=
  funext fun a => Fin.ext (by match a with | ⟨0, _⟩ => rfl)

/-- ENTRY (b, n, e) OF THE FIRST PRODUCT PLUS ITS BIAS. -/
theorem v27_apply (x0 : (⟨S8x2048x1024, .f32⟩ : BufTy).Contents (Elt Ideal)) (x1 x2 : (⟨S1024, .f32⟩ : BufTy).Contents (Elt Ideal))
    (x3 : (⟨S1024x2048, .f32⟩ : BufTy).Contents (Elt Ideal)) (x4 : (⟨S2048, .f32⟩ : BufTy).Contents (Elt Ideal))
    (b : Fin 8) (n : Fin 2048) (e : Fin 2048) :
    val_main_v27 (F := Ideal) x0 x1 x2 x3 x4 (ix3 b n e)
      = proj (lnRow (inRow x0 b n) (vecRow x1) (vecRow x2)) (fun k => x3 (ix2 k e)) (x4 (ix1 e)) := by
  rw [val_main_v27_apply, val_main_v24_apply, val_main_v26_apply, val_main_v25_apply, idx_bias27]
  unfold proj dotRow
  refine congrArg (· + x4 (ix1 e)) (Finset.sum_congr rfl fun k _ => ?_)
  rw [lidx24, ridx24, v23_apply]

/-- ENTRY (b, n, e) OF THE SECOND PRODUCT PLUS ITS BIAS. -/
theorem v36_apply (x0 : (⟨S8x2048x1024, .f32⟩ : BufTy).Contents (Elt Ideal)) (x1 x2 : (⟨S1024, .f32⟩ : BufTy).Contents (Elt Ideal))
    (x5 : (⟨S1024x1024, .f32⟩ : BufTy).Contents (Elt Ideal)) (x6 : (⟨S1024, .f32⟩ : BufTy).Contents (Elt Ideal))
    (b : Fin 8) (n : Fin 2048) (e : Fin 1024) :
    val_main_v36 (F := Ideal) x0 x1 x2 x5 x6 (ix3 b n e)
      = proj (lnRow (inRow x0 b n) (vecRow x1) (vecRow x2)) (fun k => x5 (ix2 k e)) (x6 (ix1 e)) := by
  rw [val_main_v36_apply, val_main_v33_apply, val_main_v35_apply, val_main_v34_apply, idx_bias36]
  unfold proj dotRow
  refine congrArg (· + x6 (ix1 e)) (Finset.sum_congr rfl fun k _ => ?_)
  rw [lidx33, ridx33, v23_apply]

/-! ## The three results' layouts -/

/-- Flat position ((b 2048 + n) 16 + h) 64 + d split back into its four coordinates (and a trailing unit). -/
theorem idx_split (b : Fin 8) (n : Fin 2048) (h : Fin 16) (d : Fin 64) : idx_main_v30 (ix4 b n h d) = ix5 b n h d (0 : Fin 1) := by
  have hb := b.isLt; have hn := n.isLt; have hh := h.isLt; have hd := d.isLt
  funext a; apply Fin.ext
  match a with
  | ⟨0, _⟩ => show ((((b.val * 2048 + n.val) * 16 + h.val) * 64 + d.val)) / 2097152 = b.val; omega
  | ⟨1, _⟩ => show ((((b.val * 2048 + n.val) * 16 + h.val) * 64 + d.val)) / 1024 % 2048 = n.val; omega
  | ⟨2, _⟩ => show ((((b.val * 2048 + n.val) * 16 + h.val) * 64 + d.val)) / 64 % 16 = h.val; omega
  | ⟨3, _⟩ => show ((((b.val * 2048 + n.val) * 16 + h.val) * 64 + d.val)) / 1 % 64 = d.val; omega
  | ⟨4, _⟩ => rfl
theorem idx_split' (b : Fin 8) (n : Fin 2048) (h : Fin 16) (d : Fin 64) : idx_main_v32 (ix4 b n h d) = ix5 b n h d (0 : Fin 1) := by
  have hb := b.isLt; have hn := n.isLt; have hh := h.isLt; have hd := d.isLt
  funext a; apply Fin.ext
  match a with
  | ⟨0, _⟩ => show ((((b.val * 2048 + n.val) * 16 + h.val) * 64 + d.val)) / 2097152 = b.val; omega
  | ⟨1, _⟩ => show ((((b.val * 2048 + n.val) * 16 + h.val) * 64 + d.val)) / 1024 % 2048 = n.val; omega
  | ⟨2, _⟩ => show ((((b.val * 2048 + n.val) * 16 + h.val) * 64 + d.val)) / 64 % 16 = h.val; omega
  | ⟨3, _⟩ => show ((((b.val * 2048 + n.val) * 16 + h.val) * 64 + d.val)) / 1 % 64 = d.val; omega
  | ⟨4, _⟩ => rfl

/-- The even slice keeps the pair's first member, -/
theorem idx_even (b : Fin 8) (n : Fin 2048) (h : Fin 16) (d : Fin 64) : idx_main_v29 (ix5 b n h d (0 : Fin 1)) = ix5 b n h d (0 : Fin 2) :=
  funext fun a => Fin.ext (by match a with | ⟨0, _⟩ => rfl | ⟨1, _⟩ => rfl | ⟨2, _⟩ => rfl | ⟨3, _⟩ => rfl | ⟨4, _⟩ => rfl)
/-- the odd slice its second. -/
theorem idx_odd (b : Fin 8) (n : Fin 2048) (h : Fin 16) (d : Fin 64) : idx_main_v31 (ix5 b n h d (0 : Fin 1)) = ix5 b n h d (1 : Fin 2) :=
  funext fun a => Fin.ext (by match a with | ⟨0, _⟩ => rfl | ⟨1, _⟩ => rfl | ⟨2, _⟩ => rfl | ⟨3, _⟩ => rfl | ⟨4, _⟩ => rfl)

/-- Member p of pair 64 h + d of row (b, n) sits at column 2 (64 h + d) + p. -/
theorem idx_pair (b : Fin 8) (n : Fin 2048) (h : Fin 16) (d : Fin 64) (p : Fin 2) (e : Fin 2048)
    (he : e.val = 2 * (64 * h.val + d.val) + p.val) : idx_main_v28 (ix5 b n h d p) = ix3 b n e := by
  have hb := b.isLt; have hn := n.isLt; have hh := h.isLt; have hd := d.isLt; have hp := p.isLt
  funext a; apply Fin.ext
  match a with
  | ⟨0, _⟩ => show (((((b.val * 2048 + n.val) * 16 + h.val) * 64 + d.val) * 2 + p.val)) / 4194304 = b.val; omega
  | ⟨1, _⟩ => show (((((b.val * 2048 + n.val) * 16 + h.val) * 64 + d.val) * 2 + p.val)) / 2048 % 2048 = n.val; omega
  | ⟨2, _⟩ => show (((((b.val * 2048 + n.val) * 16 + h.val) * 64 + d.val) * 2 + p.val)) % 2048 = e.val; omega

theorem idx_q (b : Fin 8) (h : Fin 16) (n : Fin 2048) (d : Fin 64) : idx_main_v38 (ix4 b h n d) = ix4 b n h d :=
  funext fun a => Fin.ext (by match a with | ⟨0, _⟩ => rfl | ⟨1, _⟩ => rfl | ⟨2, _⟩ => rfl | ⟨3, _⟩ => rfl)
theorem idx_k (b : Fin 8) (h : Fin 16) (d : Fin 64) (n : Fin 2048) : idx_main_v39 (ix4 b h d n) = ix4 b n h d :=
  funext fun a => Fin.ext (by match a with | ⟨0, _⟩ => rfl | ⟨1, _⟩ => rfl | ⟨2, _⟩ => rfl | ⟨3, _⟩ => rfl)
theorem idx_v (b : Fin 8) (h : Fin 16) (n : Fin 2048) (d : Fin 64) : idx_main_v40 (ix4 b h n d) = ix4 b n h d :=
  funext fun a => Fin.ext (by match a with | ⟨0, _⟩ => rfl | ⟨1, _⟩ => rfl | ⟨2, _⟩ => rfl | ⟨3, _⟩ => rfl)
theorem idx_vcol (b : Fin 8) (n : Fin 2048) (h : Fin 16) (d : Fin 64) : idx_main_v37 (ix4 b n h d) = ix3 b n (colV h d) := by
  have hb := b.isLt; have hn := n.isLt; have hh := h.isLt; have hd := d.isLt
  funext a; apply Fin.ext
  match a with
  | ⟨0, _⟩ => show ((((b.val * 2048 + n.val) * 16 + h.val) * 64 + d.val)) / 2097152 = b.val; omega
  | ⟨1, _⟩ => show ((((b.val * 2048 + n.val) * 16 + h.val) * 64 + d.val)) / 1024 % 2048 = n.val; omega
  | ⟨2, _⟩ => show ((((b.val * 2048 + n.val) * 16 + h.val) * 64 + d.val)) % 1024 = 64 * h.val + d.val; omega

section
variable (x0 : (⟨S8x2048x1024, .f32⟩ : BufTy).Contents (Elt Ideal)) (x1 x2 : (⟨S1024, .f32⟩ : BufTy).Contents (Elt Ideal))
  (x3 : (⟨S1024x2048, .f32⟩ : BufTy).Contents (Elt Ideal)) (x4 : (⟨S2048, .f32⟩ : BufTy).Contents (Elt Ideal))
  (x5 : (⟨S1024x1024, .f32⟩ : BufTy).Contents (Elt Ideal)) (x6 : (⟨S1024, .f32⟩ : BufTy).Contents (Elt Ideal))

/-- THE QUERY at (b, h, n, d). -/
theorem q_apply (b : Fin 8) (h : Fin 16) (n : Fin 2048) (d : Fin 64) :
    val_main_v38 (F := Ideal) x0 x1 x2 x3 x4 (ix4 b h n d)
      = proj (lnRow (inRow x0 b n) (vecRow x1) (vecRow x2)) (fun k => x3 (ix2 k (colQ h d))) (x4 (ix1 (colQ h d))) := by
  rw [val_main_v38_apply, idx_q, val_main_v30_apply, idx_split, val_main_v29_apply, idx_even, val_main_v28_apply,
    idx_pair b n h d 0 (colQ h d) rfl, v27_apply]

/-- THE KEY at (b, h, d, n). -/
theorem k_apply (b : Fin 8) (h : Fin 16) (d : Fin 64) (n : Fin 2048) :
    val_main_v39 (F := Ideal) x0 x1 x2 x3 x4 (ix4 b h d n)
      = proj (lnRow (inRow x0 b n) (vecRow x1) (vecRow x2)) (fun k => x3 (ix2 k (colK h d))) (x4 (ix1 (colK h d))) := by
  rw [val_main_v39_apply, idx_k, val_main_v32_apply, idx_split', val_main_v31_apply, idx_odd, val_main_v28_apply,
    idx_pair b n h d 1 (colK h d) rfl, v27_apply]

/-- THE VALUE at (b, h, n, d). -/
theorem v_apply (b : Fin 8) (h : Fin 16) (n : Fin 2048) (d : Fin 64) :
    val_main_v40 (F := Ideal) x0 x1 x2 x5 x6 (ix4 b h n d)
      = proj (lnRow (inRow x0 b n) (vecRow x1) (vecRow x2)) (fun k => x5 (ix2 k (colV h d))) (x6 (ix1 (colV h d))) := by
  rw [val_main_v40_apply, idx_v, val_main_v37_apply, idx_vcol, v36_apply]

/-- THE REFERENCE'S QUERIES are Gq of its arguments, -/
theorem ref_q : val_main_v38 (F := Ideal) x0 x1 x2 x3 x4 = Gq x0 x1 x2 x3 x4 := by
  funext i
  obtain ⟨b, h, n, d, rfl⟩ : ∃ (b : Fin 8) (h : Fin 16) (n : Fin 2048) (d : Fin 64), i = ix4 b h n d :=
    ⟨i 0, i 1, i 2, i 3, eq_ix4 i⟩
  rw [q_apply, Gq_apply]
  rfl

/-- its keys Gk, -/
theorem ref_k : val_main_v39 (F := Ideal) x0 x1 x2 x3 x4 = Gk x0 x1 x2 x3 x4 := by
  funext i
  obtain ⟨b, h, d, n, rfl⟩ : ∃ (b : Fin 8) (h : Fin 16) (d : Fin 64) (n : Fin 2048), i = ix4 b h d n :=
    ⟨i 0, i 1, i 2, i 3, eq_ix4 i⟩
  rw [k_apply, Gk_apply]
  rfl

/-- and its values Gv. -/
theorem ref_v : val_main_v40 (F := Ideal) x0 x1 x2 x5 x6 = Gv x0 x1 x2 x5 x6 := by
  funext i
  obtain ⟨b, h, n, d, rfl⟩ : ∃ (b : Fin 8) (h : Fin 16) (n : Fin 2048) (d : Fin 64), i = ix4 b h n d :=
    ⟨i 0, i 1, i 2, i 3, eq_ix4 i⟩
  rw [v_apply, Gv_apply]
  rfl

end

end Cert.ReferenceIdeal.Rows

end
-- ==== Proof.lean ====
/-
  A layer normalisation followed by two projections, written out per attention head: the kernel against its reference.

  Both programs normalise every row of the input (mean and variance over its 1024 entries, the float 1024.0 as the divisor
  and the float nearest 1e-5 under the reciprocal square root, then a gain and an offset), project the normalised rows by
  an interleaved weight (even columns the queries, odd columns the keys) and by a second weight (the values), add the
  biases, and lay the results out per head: queries [8, 16, 2048, 64], keys [8, 16, 64, 2048], values [8, 16, 2048, 64].
  The kernel separates the even and the odd columns of the weight and of the bias once, on the host, works on blocks of
  512 rows, and transposes each block on chip; the reference projects first and separates afterwards. On the extended
  reals every entry of every result is, in both programs, one and the same term of the arguments (Spec: Gq, Gk, Gv):
  a row's normalisation against one column of a weight, plus one bias entry. Nothing but that reindexing separates the two
  sides: the sums have the same terms in the same order, a change of float format is the identity, a sum started from the
  float zero is the sum, so no law of arithmetic and no finiteness of the inputs is used.

  The frames of the two kernel programs and the run of the reference are generated modules; the kernel's value is read off
  its frame's run block by block (Final), the reference's off its run operation by operation (RefRow).
-/
import proofs.«143649_j44736379355236_2_alg».proof.Defs
import proofs.«143649_j44736379355236_2_alg».proof.Proof.Gen.Kernel
import proofs.«143649_j44736379355236_2_alg».proof.Proof.Gen.Kernel.Skeleton
import proofs.«143649_j44736379355236_2_alg».proof.Proof.Gen.Kernel.Launch
import proofs.«143649_j44736379355236_2_alg».proof.Proof.Gen.Kernel.Points
import proofs.«143649_j44736379355236_2_alg».proof.Proof.Gen.Kernel.Frame
import proofs.«143649_j44736379355236_2_alg».proof.Proof.Gen.KernelIdeal
import proofs.«143649_j44736379355236_2_alg».proof.Proof.Gen.KernelIdeal.Skeleton
import proofs.«143649_j44736379355236_2_alg».proof.Proof.Gen.KernelIdeal.Launch
import proofs.«143649_j44736379355236_2_alg».proof.Proof.Gen.KernelIdeal.Points
import proofs.«143649_j44736379355236_2_alg».proof.Proof.Gen.KernelIdeal.Frame
import proofs.«143649_j44736379355236_2_alg».proof.Proof.Gen.ReferenceIdeal
import proofs.«143649_j44736379355236_2_alg».proof.Proof.Gen.Pre_finite_inputs
import proofs.«143649_j44736379355236_2_alg».proof.Proof.KernelIdealValue
import proofs.«143649_j44736379355236_2_alg».proof.Proof.Gen.ReferenceIdeal.Run
import proofs.«143649_j44736379355236_2_alg».proof.Proof.Gen.ReferenceIdeal.Read
import proofs.«143649_j44736379355236_2_alg».proof.Proof.Final
import proofs.«143649_j44736379355236_2_alg».proof.Proof.RefRow
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealized kernel is the kernel's own text read on the extended reals: nothing was rewritten. -/
theorem preserves : Cert.preserves_Kernel_KernelIdeal := trivial

/-- From memories that agree on the seven arguments, the kernel's three result arrays end at Gq, Gk, Gv of the arguments
    (Final.run) and so do the reference's (its run, then RefRow.ref_q, ref_k, ref_v). -/
theorem algebraic : Cert.algebraic_KernelIdeal_ReferenceIdeal := by
  intro m ρ m' ρ' _ hagree
  refine ⟨_, _, _, Cert.KernelIdeal.Final.run m ρ, ?_⟩
  refine (θ_run Cert.ReferenceIdeal.defs _ _).mono (fun _ h c => ?_) (Cert.ReferenceIdeal.Value.run (F := Ideal) m' ρ')
  obtain ⟨e0, e1, e2, e3, e4, e5, e6⟩ := hagree c
  refine ⟨(h c).1.trans ?_, (h c).2.1.trans ?_, (h c).2.2.1.trans ?_, (h c).2.2.2⟩
  · rw [e0, e1, e2, e3, e4, Cert.ReferenceIdeal.Read.val_main_v38_eq]
    exact Cert.ReferenceIdeal.Rows.ref_q _ _ _ _ _
  · rw [e0, e1, e2, e3, e4, Cert.ReferenceIdeal.Read.val_main_v39_eq]
    exact Cert.ReferenceIdeal.Rows.ref_k _ _ _ _ _
  · rw [e0, e1, e2, e5, e6, Cert.ReferenceIdeal.Read.val_main_v40_eq]
    exact Cert.ReferenceIdeal.Rows.ref_v _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
